-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S2x2048x768 .f32) (main_arg1 : FVec F S768x768 .f32) (main_arg2 : FVec F S768x768 .f32) (main_arg3 : FVec F S768x768 .f32) (main_arg4 : FVec F S768x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x2048x768 : Shape := ⟨3, ![2, 2048, 768]⟩
abbrev S768x768 : Shape := ⟨2, ![768, 768]⟩
abbrev S768x2304 : Shape := ⟨2, ![768, 2304]⟩
abbrev S4096x768 : Shape := ⟨2, ![4096, 768]⟩
abbrev S4096x2304 : Shape := ⟨2, ![4096, 2304]⟩
abbrev S512x768 : Shape := ⟨2, ![512, 768]⟩
abbrev S512x2304 : Shape := ⟨2, ![512, 2304]⟩
abbrev S2x2048x12x64 : Shape := ⟨4, ![2, 2048, 12, 64]⟩
abbrev S2x12x2048x64 : Shape := ⟨4, ![2, 12, 2048, 64]⟩
abbrev S24x2048x64 : Shape := ⟨3, ![24, 2048, 64]⟩
abbrev S24x2048x2048 : Shape := ⟨3, ![24, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S2x12x2048x2048 : Shape := ⟨4, ![2, 12, 2048, 2048]⟩

abbrev nBuf : Space → Nat
  | .hbm => 32
  | .vmem => 20
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x2304, .f32⟩
  | .hbm, ⟨9, _⟩ => ⟨S768x768, .f32⟩
  | .hbm, ⟨10, _⟩ => ⟨S4096x768, .f32⟩
  | .hbm, ⟨11, _⟩ => ⟨S4096x2304, .bf16⟩
  | .hbm, ⟨12, _⟩ => ⟨S4096x768, .bf16⟩
  | .hbm, ⟨13, _⟩ => ⟨S4096x768, .bf16⟩
  | .hbm, ⟨14, _⟩ => ⟨S4096x768, .bf16⟩
  | .hbm, ⟨15, _⟩ => ⟨S2x2048x12x64, .bf16⟩
  | .hbm, ⟨16, _⟩ => ⟨S2x12x2048x64, .bf16⟩
  | .hbm, ⟨17, _⟩ => ⟨S24x2048x64, .bf16⟩
  | .hbm, ⟨18, _⟩ => ⟨S2x2048x12x64, .bf16⟩
  | .hbm, ⟨19, _⟩ => ⟨S2x12x2048x64, .bf16⟩
  | .hbm, ⟨20, _⟩ => ⟨S24x2048x64, .bf16⟩
  | .hbm, ⟨21, _⟩ => ⟨S2x2048x12x64, .bf16⟩
  | .hbm, ⟨22, _⟩ => ⟨S2x12x2048x64, .bf16⟩
  | .hbm, ⟨23, _⟩ => ⟨S24x2048x64, .bf16⟩
  | .hbm, ⟨24, _⟩ => ⟨S24x2048x64, .bf16⟩
  | .hbm, ⟨25, _⟩ => ⟨S24x2048x2048, .f32⟩
  | .hbm, ⟨26, _⟩ => ⟨S2x12x2048x64, .bf16⟩
  | .hbm, ⟨27, _⟩ => ⟨S2x2048x12x64, .bf16⟩
  | .hbm, ⟨28, _⟩ => ⟨S4096x768, .bf16⟩
  | .hbm, ⟨29, _⟩ => ⟨S4096x768, .f32⟩
  | .hbm, ⟨30, _⟩ => ⟨S2x2048x768, .f32⟩
  | .hbm, ⟨31, _⟩ => ⟨S2x12x2048x2048, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S512x2304, .bf16⟩
  | .local _ .vmem, ⟨4, _⟩ => ⟨S512x2304, .bf16⟩
  | .local _ .vmem, ⟨5, _⟩ => ⟨S1x256x64, .bf16⟩
  | .local _ .vmem, ⟨6, _⟩ => ⟨S1x256x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x256x64, .bf16⟩
  | .local _ .vmem, ⟨12, _⟩ => ⟨S1x256x64, .bf16⟩
  | .local _ .vmem, ⟨13, _⟩ => ⟨S1x256x2048, .f32⟩
  | .local _ .vmem, ⟨14, _⟩ => ⟨S1x256x2048, .f32⟩
  | .local _ .vmem, ⟨15, _⟩ => ⟨S512x768, .bf16⟩
  | .local _ .vmem, ⟨16, _⟩ => ⟨S512x768, .bf16⟩
  | .local _ .vmem, ⟨17, _⟩ => ⟨S768x768, .f32⟩
  | .local _ .vmem, ⟨18, _⟩ => ⟨S512x768, .f32⟩
  | .local _ .vmem, ⟨19, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![24, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S768x768_S768x768_1_0 : S768x768.Transposes [1, 0] S768x768
  concatenates_S768x768_S768x768_S768x768_S768x2304_d1 : Shape.Concatenates [S768x768, S768x768, S768x768] S768x2304 1
  shapeCasts_S2x2048x768_S4096x768 : S2x2048x768.ShapeCasts S4096x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  slices_S4096x2304_S4096x768_0_0 : S4096x2304.Slices ![0, 0] S4096x768
  slices_S4096x2304_S4096x768_0_768 : S4096x2304.Slices ![0, 768] S4096x768
  slices_S4096x2304_S4096x768_0_1536 : S4096x2304.Slices ![0, 1536] S4096x768
  shapeCasts_S4096x768_S2x2048x12x64 : S4096x768.ShapeCasts S2x2048x12x64
  transposes_S2x2048x12x64_S2x12x2048x64_0_2_1_3 : S2x2048x12x64.Transposes [0, 2, 1, 3] S2x12x2048x64
  shapeCasts_S2x12x2048x64_S24x2048x64 : S2x12x2048x64.ShapeCasts S24x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S24x2048x64_S2x12x2048x64 : S24x2048x64.ShapeCasts S2x12x2048x64
  transposes_S2x12x2048x64_S2x2048x12x64_0_2_1_3 : S2x12x2048x64.Transposes [0, 2, 1, 3] S2x2048x12x64
  shapeCasts_S2x2048x12x64_S4096x768 : S2x2048x12x64.ShapeCasts S4096x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S4096x768_S2x2048x768 : S4096x768.ShapeCasts S2x2048x768
  shapeCasts_S24x2048x2048_S2x12x2048x2048 : S24x2048x2048.ShapeCasts S2x12x2048x2048
  dot_S512x768_S768x2304_S512x2304_1_0_0_1_n_n_wf : DotDims.WF S512x768 S768x2304 S512x2304 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S4096x2304.size a
  hwx0_2 : ∀ i : grid0.Coords, EltTy.bits .bf16 = 32 ∨ (Rect.block (s := S4096x2304) S512x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S24x2048x64.size a
  hwx1_0 : ∀ i : grid1.Coords, EltTy.bits .bf16 = 32 ∨ (Rect.block (s := S24x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S24x2048x64.size a
  hwx1_1 : ∀ i : grid1.Coords, EltTy.bits .bf16 = 32 ∨ (Rect.block (s := S24x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S24x2048x64.size a
  hwx1_2 : ∀ i : grid1.Coords, EltTy.bits .bf16 = 32 ∨ (Rect.block (s := S24x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S24x2048x64.size a
  hwx1_3 : ∀ i : grid1.Coords, EltTy.bits .bf16 = 32 ∨ (Rect.block (s := S24x2048x64) S1x256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S24x2048x2048.size a
  hwx1_4 : ∀ i : grid1.Coords, EltTy.bits .f32 = 32 ∨ (Rect.block (s := S24x2048x2048) S1x256x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .bf16 = 32 ∨ (Rect.block (s := S4096x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x768.size a ≤ S4096x768.size a
  hwx2_2 : ∀ i : grid2.Coords, EltTy.bits .f32 = 32 ∨ (Rect.block (s := S4096x768) S512x768.size (cc2_transform_2 i) (hinb2_2 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v5) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S1x256x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S512x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x768 : Shape := ⟨3, ![2, 2048, 768]⟩
abbrev S768x768 : Shape := ⟨2, ![768, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2048x2048 : Shape := ⟨2, ![2048, 2048]⟩
abbrev S2x12x2048 : Shape := ⟨3, ![2, 12, 2048]⟩
abbrev S2x12x2048x1 : Shape := ⟨4, ![2, 12, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x2048x768, .f32⟩
  | .hbm, ⟨6, _⟩ => ⟨S2x2048x12x64, .f32⟩
  | .hbm, ⟨7, _⟩ => ⟨S2x12x2048x64, .f32⟩
  | .hbm, ⟨8, _⟩ => ⟨S2x2048x768, .f32⟩
  | .hbm, ⟨9, _⟩ => ⟨S2x2048x12x64, .f32⟩
  | .hbm, ⟨10, _⟩ => ⟨S2x12x2048x64, .f32⟩
  | .hbm, ⟨11, _⟩ => ⟨S2x2048x768, .f32⟩
  | .hbm, ⟨12, _⟩ => ⟨S2x2048x12x64, .f32⟩
  | .hbm, ⟨13, _⟩ => ⟨S2x12x2048x64, .f32⟩
  | .hbm, ⟨14, _⟩ => ⟨S2x12x2048x2048, .f32⟩
  | .hbm, ⟨15, _⟩ => ⟨S_, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .i1⟩
  | .hbm, ⟨24, _⟩ => ⟨S2048x2048, .i1⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x12x2048x2048, .i1⟩
  | .hbm, ⟨29, _⟩ => ⟨S2x12x2048x2048, .f32⟩
  | .hbm, ⟨30, _⟩ => ⟨S2x12x2048x2048, .f32⟩
  | .hbm, ⟨31, _⟩ => ⟨S_, .f32⟩
  | .hbm, ⟨32, _⟩ => ⟨S2x12x2048x2048, .f32⟩
  | .hbm, ⟨33, _⟩ => ⟨S2x12x2048x2048, .f32⟩
  | .hbm, ⟨34, _⟩ => ⟨S_, .f32⟩
  | .hbm, ⟨35, _⟩ => ⟨S2x12x2048, .f32⟩
  | .hbm, ⟨36, _⟩ => ⟨S_, .f32⟩
  | .hbm, ⟨37, _⟩ => ⟨S2x12x2048, .f32⟩
  | .hbm, ⟨38, _⟩ => ⟨S2x12x2048, .f32⟩
  | .hbm, ⟨39, _⟩ => ⟨S2x12x2048x1, .f32⟩
  | .hbm, ⟨40, _⟩ => ⟨S2x12x2048x2048, .f32⟩
  | .hbm, ⟨41, _⟩ => ⟨S2x12x2048x2048, .f32⟩
  | .hbm, ⟨42, _⟩ => ⟨S2x12x2048x2048, .f32⟩
  | .hbm, ⟨43, _⟩ => ⟨S_, .f32⟩
  | .hbm, ⟨44, _⟩ => ⟨S2x12x2048, .f32⟩
  | .hbm, ⟨45, _⟩ => ⟨S2x12x2048x1, .f32⟩
  | .hbm, ⟨46, _⟩ => ⟨S2x12x2048x2048, .f32⟩
  | .hbm, ⟨47, _⟩ => ⟨S2x12x2048x2048, .f32⟩
  | .hbm, ⟨48, _⟩ => ⟨S2x12x2048x64, .f32⟩
  | .hbm, ⟨49, _⟩ => ⟨S2x2048x12x64, .f32⟩
  | .hbm, ⟨50, _⟩ => ⟨S2x2048x768, .f32⟩
  | .hbm, ⟨51, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v11 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2048x2048 : S_.BroadcastsInDim S2048x2048 (![] : Fin 0 → Fin S2048x2048.rank)
  bcast_S2048x2048_S2x12x2048x2048_2_3 : S2048x2048.BroadcastsInDim S2x12x2048x2048 (![2, 3] : Fin 2 → Fin S2x12x2048x2048.rank)
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x2048x768_S768x768_S2x2048x768_2_1_01_0_n_n_wf : DotDims.WF S2x2048x768 S768x768 S2x2048x768 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.BitsStage0.lean ====
import proofs.«172513_j47966194761863_2_alg».proof.Proof.Gen.Kernel.Launch
import proofs.«172513_j47966194761863_2_alg».proof.Proof.Gen.Kernel.Skeleton
import proofs.«172513_j47966194761863_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 0: the fused query/key/value projection: a row block of the input times the whole weight matrix

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or its index
    has not moved since the last fetch. -/
theorem staged0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the point fetches it or its index
    has not moved since the last fetch. -/
theorem staged0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- The body reads and writes every staging buffer whole. -/
abbrev whole0_0 : Rect S512x768 := Rect.unit (s := S512x768) ![0, 0] S512x768.size inb_S512x768_S512x768_0_0
abbrev whole0_1 : Rect S768x2304 := Rect.unit (s := S768x2304) ![0, 0] S768x2304.size inb_S768x2304_S768x2304_0_0
abbrev whole0_2 : Rect S512x2304 := Rect.unit (s := S512x2304) ![0, 0] S512x2304.size inb_S512x2304_S512x2304_0_0

/-- What the body leaves in output window 2's staging buffer, from the input blocks: its one whole-buffer store. -/
def stored0_2 (i : grid0.Coords) (x0 : Vec F S512x768 .f32) (x1 : Vec F S768x2304 .f32) : Vec F S512x2304 .bf16 :=
  View.canon [⟨whole0_2, k0_pay1 (View.ld x0 whole0_0) (View.ld x1 whole0_1)⟩]

theorem covers0_2 (p0 : Vec F S512x2304 .bf16) (y : S512x2304.Idx) :
    ∃ pc ∈ ([⟨whole0_2, p0⟩] : List (View.Piece (Elt F) S512x2304 .bf16)), y ∈ pc.1.set :=
  View.cover_of_tiled [⟨whole0_2, p0⟩] S512x2304.size (by rfl) y

set_option maxHeartbeats 1000000 in
/-- The body's triple: on whole staging buffers, the inputs holding `x` and the outputs anything, it runs to the end
    leaving the inputs as they were and each output at its stored value. -/
theorem body_triple0 (c : Dev nD) (E : Set ℕ) (i : grid0.Coords) (a0 : Memref sig .tc .vmem S512x768 .f32) (ha0 : a0.IsWhole) (a1 : Memref sig .tc .vmem S768x2304 .f32) (ha1 : a1.IsWhole) (a2 : Memref sig .tc .vmem S512x2304 .bf16) (ha2 : a2.IsWhole)
    (x0 : Vec F S512x768 .f32) (x1 : Vec F S768x2304 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored0_2 i x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- The pipeline's proof data on core `c`: the arrays as the call finds them; after the body at point `t` each input's
    buffer at its block and each output's at the stored value of the input blocks; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => stored0_2 (grid0.coords t) (blockAt0 V c 0 t) (blockAt0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = stored0_2 (grid0.coords t) (blockAt0 V c 0 t) (blockAt0 V c 1 t) := by dsimp only [data0]
theorem staged0_0 (c : Dev nD) (t : Fin cfg0.N) (d) : (data0 V c).before 0 t d = blockAt0 V c 0 t :=
  staged0_0_of V (data0 V c) (data0_A V c 0) (data0_after_0 V c) t d
theorem staged0_1 (c : Dev nD) (t : Fin cfg0.N) (d) : (data0 V c).before 1 t d = blockAt0 V c 1 t :=
  staged0_1_of V (data0 V c) (data0_A V c 1) (data0_after_1 V c) t d

/-- What the body is called with at point `t`, -/
def bodyBefore0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def bodyAfter0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body_at0 (c : Dev nD) (t : Fin cfg0.N) :
    bodyBefore0 V c t ⊢ wp frame (wpE (defs₀ (F := F)) Variants.none c none) Set.univ (bodyAt0 t) (fun _ => bodyAfter0 V c t) := by
  unfold bodyBefore0 bodyAfter0 bodyAt0
  simp only [staged0_0, staged0_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body_triple0 c Set.univ (grid0.coords t) _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (data0 (F := F) V c) (defs₀ (F := F)) Variants.none () Set.univ := fun t => by
  rw [bigSep_W0, bigSep_W0]
  exact body_at0 V c t

end Cert.Kernel.Stages

end
-- ==== Proof.BitsStage1.lean ====
import proofs.«172513_j47966194761863_2_alg».proof.Proof.Gen.Kernel.Launch
import proofs.«172513_j47966194761863_2_alg».proof.Proof.Gen.Kernel.Skeleton
import proofs.«172513_j47966194761863_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 1: causal attention of one query tile against the whole keys and values of its head

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or its index
    has not moved since the last fetch. -/
theorem staged1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the point fetches it or its index
    has not moved since the last fetch. -/
theorem staged1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the point fetches it or its index
    has not moved since the last fetch. -/
theorem staged1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The body reads and writes every staging buffer whole. -/
abbrev whole1_0 : Rect S1x256x64 := Rect.unit (s := S1x256x64) ![0, 0, 0] S1x256x64.size inb_S1x256x64_S1x256x64_0_0_0
abbrev whole1_1 : Rect S1x2048x64 := Rect.unit (s := S1x2048x64) ![0, 0, 0] S1x2048x64.size inb_S1x2048x64_S1x2048x64_0_0_0
abbrev whole1_2 : Rect S1x2048x64 := Rect.unit (s := S1x2048x64) ![0, 0, 0] S1x2048x64.size inb_S1x2048x64_S1x2048x64_0_0_0
abbrev whole1_3 : Rect S1x256x64 := Rect.unit (s := S1x256x64) ![0, 0, 0] S1x256x64.size inb_S1x256x64_S1x256x64_0_0_0
abbrev whole1_4 : Rect S1x256x2048 := Rect.unit (s := S1x256x2048) ![0, 0, 0] S1x256x2048.size inb_S1x256x2048_S1x256x2048_0_0_0

/-- What the body leaves in output window 3's staging buffer, from the input blocks: its one whole-buffer store. -/
def stored1_3 (i : grid1.Coords) (x0 : Vec F S1x256x64 .bf16) (x1 : Vec F S1x2048x64 .bf16) (x2 : Vec F S1x2048x64 .bf16) : Vec F S1x256x64 .bf16 :=
  View.canon [⟨whole1_3, k1_pay1 (k1_pay4 i (View.ld x0 whole1_0) (View.ld x1 whole1_1) (View.ld x2 whole1_2))⟩]

theorem covers1_3 (p0 : Vec F S1x256x64 .bf16) (y : S1x256x64.Idx) :
    ∃ pc ∈ ([⟨whole1_3, p0⟩] : List (View.Piece (Elt F) S1x256x64 .bf16)), y ∈ pc.1.set :=
  View.cover_of_tiled [⟨whole1_3, p0⟩] S1x256x64.size (by rfl) y

/-- What the body leaves in output window 4's staging buffer, from the input blocks: its one whole-buffer store. -/
def stored1_4 (i : grid1.Coords) (x0 : Vec F S1x256x64 .bf16) (x1 : Vec F S1x2048x64 .bf16) (x2 : Vec F S1x2048x64 .bf16) : Vec F S1x256x2048 .f32 :=
  View.canon [⟨whole1_4, k1_pay3 i (View.ld x0 whole1_0) (View.ld x1 whole1_1)⟩]

theorem covers1_4 (p0 : Vec F S1x256x2048 .f32) (y : S1x256x2048.Idx) :
    ∃ pc ∈ ([⟨whole1_4, p0⟩] : List (View.Piece (Elt F) S1x256x2048 .f32)), y ∈ pc.1.set :=
  View.cover_of_tiled [⟨whole1_4, p0⟩] S1x256x2048.size (by rfl) y

set_option maxHeartbeats 1000000 in
/-- The body's triple: on whole staging buffers, the inputs holding `x` and the outputs anything, it runs to the end
    leaving the inputs as they were and each output at its stored value. -/
theorem body_triple1 (c : Dev nD) (E : Set ℕ) (i : grid1.Coords) (a0 : Memref sig .tc .vmem S1x256x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x256x64 .bf16) (ha3 : a3.IsWhole) (a4 : Memref sig .tc .vmem S1x256x2048 .f32) (ha4 : a4.IsWhole)
    (x0 : Vec F S1x256x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (stored1_3 i x0 x1 x2) ∗ owns (c : Thread nD τ) a4 fullShare (stored1_4 i x0 x1 x2)) -∗ K ⟨⟩))
      ⊢ wp frame (wpE (defs₀ (F := F)) Variants.none c none) E (cc1__attn_kernel i a0 ha0 a1 ha1 a2 ha2 a3 ha3 a4 ha4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_3 _)
  iexists _; isplitr
  swap; · iexact H4
  ipureintro
  exact View.read_writes_eq_canon _ _ _ (covers1_4 _)

/-- The pipeline's proof data on core `c`: the arrays as the call finds them; after the body at point `t` each input's
    buffer at its block and each output's at the stored value of the input blocks; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => stored1_3 (grid1.coords t) (blockAt1 V c 0 t) (blockAt1 V c 1 t) (blockAt1 V c 2 t)
    | ⟨4, _⟩ => stored1_4 (grid1.coords t) (blockAt1 V c 0 t) (blockAt1 V c 1 t) (blockAt1 V c 2 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = stored1_3 (grid1.coords t) (blockAt1 V c 0 t) (blockAt1 V c 1 t) (blockAt1 V c 2 t) := by dsimp only [data1]
theorem data1_after_4 (c : Dev nD) (t : Fin cfg1.N) : (data1 V c).after 4 t = stored1_4 (grid1.coords t) (blockAt1 V c 0 t) (blockAt1 V c 1 t) (blockAt1 V c 2 t) := by dsimp only [data1]
theorem staged1_0 (c : Dev nD) (t : Fin cfg1.N) (d) : (data1 V c).before 0 t d = blockAt1 V c 0 t :=
  staged1_0_of V (data1 V c) (data1_A V c 0) (data1_after_0 V c) t d
theorem staged1_1 (c : Dev nD) (t : Fin cfg1.N) (d) : (data1 V c).before 1 t d = blockAt1 V c 1 t :=
  staged1_1_of V (data1 V c) (data1_A V c 1) (data1_after_1 V c) t d
theorem staged1_2 (c : Dev nD) (t : Fin cfg1.N) (d) : (data1 V c).before 2 t d = blockAt1 V c 2 t :=
  staged1_2_of V (data1 V c) (data1_A V c 2) (data1_after_2 V c) t d

/-- What the body is called with at point `t`, -/
def bodyBefore1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d)))

/-- and what it returns. -/
def bodyAfter1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t))

theorem body_at1 (c : Dev nD) (t : Fin cfg1.N) :
    bodyBefore1 V c t ⊢ wp frame (wpE (defs₀ (F := F)) Variants.none c none) Set.univ (bodyAt1 t) (fun _ => bodyAfter1 V c t) := by
  unfold bodyBefore1 bodyAfter1 bodyAt1
  simp only [staged1_0, staged1_1, staged1_2]
  rw [show (data1 V c).Φ t.succ = (data1 V c).Φ t.castSucc from rfl,
    show (data1 V c).owesAt () t.succ = (data1 V c).owesAt () t.castSucc from rfl,
    data1_after_0, data1_after_1, data1_after_2, data1_after_3, data1_after_4]
  iintro ⟨HΦ, Ho, ⟨%d0, H0⟩, ⟨%d1, H1⟩, ⟨%d2, H2⟩, ⟨%d3, H3⟩, ⟨%d4, H4⟩⟩
  iapply (body_triple1 c Set.univ (grid1.coords t) _ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation1 (c : Dev nD) : BodyObligation (data1 (F := F) V c) (defs₀ (F := F)) Variants.none () Set.univ := fun t => by
  rw [bigSep_W1, bigSep_W1]
  exact body_at1 V c t

end Cert.Kernel.Stages

end
-- ==== Proof.BitsStage2.lean ====
import proofs.«172513_j47966194761863_2_alg».proof.Proof.Gen.Kernel.Launch
import proofs.«172513_j47966194761863_2_alg».proof.Proof.Gen.Kernel.Skeleton
import proofs.«172513_j47966194761863_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 2: the output projection: a row block of the attention output times the whole weight matrix

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or its index
    has not moved since the last fetch. -/
theorem staged2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- An input window's current staging buffer holds its block at every point, whether the point fetches it or its index
    has not moved since the last fetch. -/
theorem staged2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The body reads and writes every staging buffer whole. -/
abbrev whole2_0 : Rect S512x768 := Rect.unit (s := S512x768) ![0, 0] S512x768.size inb_S512x768_S512x768_0_0
abbrev whole2_1 : Rect S768x768 := Rect.unit (s := S768x768) ![0, 0] S768x768.size inb_S768x768_S768x768_0_0
abbrev whole2_2 : Rect S512x768 := Rect.unit (s := S512x768) ![0, 0] S512x768.size inb_S512x768_S512x768_0_0

/-- What the body leaves in output window 2's staging buffer, from the input blocks: its one whole-buffer store. -/
def stored2_2 (i : grid2.Coords) (x0 : Vec F S512x768 .bf16) (x1 : Vec F S768x768 .f32) : Vec F S512x768 .f32 :=
  View.canon [⟨whole2_2, k2_pay1 (View.ld x0 whole2_0) (View.ld x1 whole2_1)⟩]

theorem covers2_2 (p0 : Vec F S512x768 .f32) (y : S512x768.Idx) :
    ∃ pc ∈ ([⟨whole2_2, p0⟩] : List (View.Piece (Elt F) S512x768 .f32)), y ∈ pc.1.set :=
  View.cover_of_tiled [⟨whole2_2, p0⟩] S512x768.size (by rfl) y

set_option maxHeartbeats 1000000 in
/-- The body's triple: on whole staging buffers, the inputs holding `x` and the outputs anything, it runs to the end
    leaving the inputs as they were and each output at its stored value. -/
theorem body_triple2 (c : Dev nD) (E : Set ℕ) (i : grid2.Coords) (a0 : Memref sig .tc .vmem S512x768 .bf16) (ha0 : a0.IsWhole) (a1 : Memref sig .tc .vmem S768x768 .f32) (ha1 : a1.IsWhole) (a2 : Memref sig .tc .vmem S512x768 .f32) (ha2 : a2.IsWhole)
    (x0 : Vec F S512x768 .bf16) (x1 : Vec F S768x768 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored2_2 i x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2_2 _)

/-- The pipeline's proof data on core `c`: the arrays as the call finds them; after the body at point `t` each input's
    buffer at its block and each output's at the stored value of the input blocks; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2_2 (grid2.coords t) (blockAt2 V c 0 t) (blockAt2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = stored2_2 (grid2.coords t) (blockAt2 V c 0 t) (blockAt2 V c 1 t) := by dsimp only [data2]
theorem staged2_0 (c : Dev nD) (t : Fin cfg2.N) (d) : (data2 V c).before 0 t d = blockAt2 V c 0 t :=
  staged2_0_of V (data2 V c) (data2_A V c 0) (data2_after_0 V c) t d
theorem staged2_1 (c : Dev nD) (t : Fin cfg2.N) (d) : (data2 V c).before 1 t d = blockAt2 V c 1 t :=
  staged2_1_of V (data2 V c) (data2_A V c 1) (data2_after_1 V c) t d

/-- What the body is called with at point `t`, -/
def bodyBefore2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def bodyAfter2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body_at2 (c : Dev nD) (t : Fin cfg2.N) :
    bodyBefore2 V c t ⊢ wp frame (wpE (defs₀ (F := F)) Variants.none c none) Set.univ (bodyAt2 t) (fun _ => bodyAfter2 V c t) := by
  unfold bodyBefore2 bodyAfter2 bodyAt2
  simp only [staged2_0, staged2_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (body_triple2 c Set.univ (grid2.coords t) _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (data2 (F := F) V c) (defs₀ (F := F)) Variants.none () Set.univ := fun t => by
  rw [bigSep_W2, bigSep_W2]
  exact body_at2 V c t

end Cert.Kernel.Stages

end
-- ==== Proof.BitsRun.lean ====
import proofs.«172513_j47966194761863_2_alg».proof.Proof.Gen.Kernel.Launch
import proofs.«172513_j47966194761863_2_alg».proof.Proof.Gen.Kernel.Regions
import proofs.«172513_j47966194761863_2_alg».proof.Proof.Gen.Kernel.Skeleton
import proofs.«172513_j47966194761863_2_alg».proof.Proof.Gen.Kernel.Points
import proofs.«172513_j47966194761863_2_alg».proof.Proof.BitsStage0
import proofs.«172513_j47966194761863_2_alg».proof.Proof.BitsStage1
import proofs.«172513_j47966194761863_2_alg».proof.Proof.BitsStage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program as seven segments: four stretches of host operations around three Pallas calls

The contents of a core's buffers at each boundary are a fold from the launch memory: a host stretch applies its
operations; a Pallas call leaves its windows' arrays at what its write-backs make of them and every other buffer alone. -/

variable (m : (ℓ : Loc nD τ sig) → Buf (Elt F) ℓ) (ρ : Dev nD → PrngReg)

/-- At launch. -/
abbrev B0 : Dev nD → Valuation τ sig (Elt F) := fun c b => (s₀ m ρ).mem ((c : Dev nD), b)
/-- After host stretch 0: what Pallas call 0 is entered with. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After Pallas call 0. -/
def B2 (c : Dev nD) : Valuation τ sig (Elt F) :=
  Pipeline.withArrays spec0 c (B1 m ρ c) fun w => (data0 (E1 m ρ) c).arrAt w cfg0.N
theorem B2_arr (c : Dev nD) (w : Fin cfg0.W) :
    B2 m ρ c (Proc.devRef .tc (Pipeline.arrRef spec0 w)) = (data0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (data0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After host stretch 1: what Pallas call 1 is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After Pallas call 1. -/
def B4 (c : Dev nD) : Valuation τ sig (Elt F) :=
  Pipeline.withArrays spec1 c (B3 m ρ c) fun w => (data1 (E3 m ρ) c).arrAt w cfg1.N
theorem B4_arr (c : Dev nD) (w : Fin cfg1.W) :
    B4 m ρ c (Proc.devRef .tc (Pipeline.arrRef spec1 w)) = (data1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (data1 (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After host stretch 2: what Pallas call 2 is entered with. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After Pallas call 2. -/
def B6 (c : Dev nD) : Valuation τ sig (Elt F) :=
  Pipeline.withArrays spec2 c (B5 m ρ c) fun w => (data2 (E5 m ρ) c).arrAt w cfg2.N
theorem B6_arr (c : Dev nD) (w : Fin cfg2.W) :
    B6 m ρ c (Proc.devRef .tc (Pipeline.arrRef spec2 w)) = (data2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (data2 (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After the last host stretch: at the return. -/
abbrev B7 : Dev nD → Valuation τ sig (Elt F) := fun c => StableHlo.after hostOps3 (B6 m ρ c)

/-! ## No segment writes an argument -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

/-! ## The proof data family and the thread state -/

/-- Every pipeline's proof data, each at its call's entry contents. -/
def allData : (p : Fin 3) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E3 m ρ) c
  | ⟨2, _⟩ => fun c => data2 (E5 m ρ) c
abbrev noVariants : Variants := Variants.none
/-- No core owes another anything. -/
abbrev noPairs : GSem nD τ sig → Finset Unit := fun _ => ∅
abbrev noLevel : GSem nD τ sig → Unit → ℕ := fun _ _ => 0
/-- What rides beside the buffers through every segment: the core's generator register at some state and its debts, none. -/
abbrev Beside (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev AtReturn (c : Dev nD) : sProp 𝕄 := iprop(StableHlo.held (c : Thread nD τ) (Pipeline.ucRefs τ sig) (B7 m ρ c) ∗ ∃ r, prngReg c r)

/-- The last host stretch's exit state is the state at the return beside the debts. -/
theorem at_return (c : Dev nD) :
    (iprop(StableHlo.held (c : Thread nD τ) (Pipeline.ucRefs τ sig) (B7 m ρ c) ∗ Beside c) : sProp 𝕄)
      ⊢ iprop(AtReturn m ρ c ∗ ∃ W, owes (c : Thread nD τ) (0 : CellTallies nD τ sig Unit) W) := by
  unfold AtReturn Beside
  iintro ⟨Hh, Hp, HO⟩
  isplitl [Hh Hp]
  · isplitl [Hh]; · iexact Hh
    iexact Hp
  iexact HO

/-! ## The Pallas calls as segments -/

set_option backward.isDefEq.respectTransparency.types false in
/-- Pallas call 0: entered from every unscoped buffer at `B1`, left at `B2`. Its arrays are split out of the
    unscoped buffers and put back at the exit contents; the generator register goes into the invariant and out. -/
def call0 : Pipeline.RegionSeg (pcfgs (F := F)) adm (allData m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (allData m ρ) launch0.win launch0.arr_whole c
      ((allData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allData m ρ) ((allData m ρ 0 c).share_full fun _ => rfl)
      (E1 m ρ c) (E2 m ρ c) ((allData m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1: entered from every unscoped buffer at `B3`, left at `B4`. Its arrays are split out of the
    unscoped buffers and put back at the exit contents; the generator register goes into the invariant and out. -/
def call1 : Pipeline.RegionSeg (pcfgs (F := F)) adm (allData m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ Beside c)
  post c := iprop(StableHlo.held (c : Thread nD τ) (Pipeline.ucRefs τ sig) (B4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (allData m ρ) launch1.win launch1.arr_whole c
      ((allData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allData m ρ) ((allData m ρ 1 c).share_full fun _ => rfl)
      (E3 m ρ c) (E4 m ρ c) ((allData m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2: entered from every unscoped buffer at `B5`, left at `B6`. Its arrays are split out of the
    unscoped buffers and put back at the exit contents; the generator register goes into the invariant and out. -/
def call2 : Pipeline.RegionSeg (pcfgs (F := F)) adm (allData m ρ) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noPairs noLevel 2 fun _ _ => rfl
  pre c := iprop(StableHlo.held (c : Thread nD τ) (Pipeline.ucRefs τ sig) (B5 m ρ c) ∗ Beside c)
  post c := iprop(StableHlo.held (c : Thread nD τ) (Pipeline.ucRefs τ sig) (B6 m ρ c) ∗ Beside c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (allData m ρ) launch2.win launch2.arr_whole c
      ((allData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allData m ρ) ((allData m ρ 2 c).share_full fun _ => rfl)
      (E5 m ρ c) (E6 m ρ c) ((allData m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev allSegs : List (Pipeline.Seg (pcfgs (F := F)) adm (allData m ρ) () defs₀ noVariants noPairs noLevel) :=
  [ .host (hostSeg hostOps0 hostOps0_sub hostOps0_fresh (B0 m ρ)),
    .region (call0 m ρ),
    .host (hostSeg hostOps1 hostOps1_sub hostOps1_fresh (B2 m ρ)),
    .region (call1 m ρ),
    .host (hostSeg hostOps2 hostOps2_sub hostOps2_fresh (B4 m ρ)),
    .region (call2 m ρ),
    .host (hostSeg hostOps3 hostOps3_sub hostOps3_fresh (B6 m ρ)) ]

theorem main_is_segs (c : Dev nD) : main (F := F) c = Pipeline.Seg.run (allSegs m ρ) := (main_chain c).trans (by chain_rfl)

set_option backward.isDefEq.respectTransparency.types false in
/-- THE RUN. From any memory with zero counters every weakly fair execution of the program terminates, nothing faulting,
    and in every final state every unscoped buffer of every core holds the last boundary's contents `B7`. -/
theorem run_to_B7 : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (allData m ρ) () cellOf_inj emb₁ defs₀ noVariants noPairs noLevel m ρ main (allSegs m ρ)
    (fun c Q => by rw [main_is_segs m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun _ => .rfl, fun _ => .rfl, fun _ => .rfl, fun c => at_return m ρ c⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: the argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c _ (mem_unscoped main_arg0 (by decide))).trans (B7_main_arg0 m ρ c),
    (h c _ (mem_unscoped main_arg1 (by decide))).trans (B7_main_arg1 m ρ c),
    (h c _ (mem_unscoped main_arg2 (by decide))).trans (B7_main_arg2 m ρ c),
    (h c _ (mem_unscoped main_arg3 (by decide))).trans (B7_main_arg3 m ρ c),
    (h c _ (mem_unscoped main_arg4 (by decide))).trans (B7_main_arg4 m ρ c)⟩) (run_to_B7 m ρ)

end Cert.Kernel.Stages

end
-- ==== Proof.IdealStage0.lean ====
import proofs.«172513_j47966194761863_2_alg».proof.Proof.Gen.KernelIdeal.Launch
import proofs.«172513_j47966194761863_2_alg».proof.Proof.Gen.KernelIdeal.Skeleton
import proofs.«172513_j47966194761863_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Pallas call 0: the fused query/key/value projection: a row block of the input times the whole weight matrix

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or its index
    has not moved since the last fetch. -/
theorem staged0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's current staging buffer holds its block at every point, whether the point fetches it or its index
    has not moved since the last fetch. -/
theorem staged0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- The body reads and writes every staging buffer whole. -/
abbrev whole0_0 : Rect S512x768 := Rect.unit (s := S512x768) ![0, 0] S512x768.size inb_S512x768_S512x768_0_0
abbrev whole0_1 : Rect S768x2304 := Rect.unit (s := S768x2304) ![0, 0] S768x2304.size inb_S768x2304_S768x2304_0_0
abbrev whole0_2 : Rect S512x2304 := Rect.unit (s := S512x2304) ![0, 0] S512x2304.size inb_S512x2304_S512x2304_0_0

/-- What the body leaves in output window 2's staging buffer, from the input blocks: its one whole-buffer store. -/
def stored0_2 (i : grid0.Coords) (x0 : Vec F S512x768 .f32) (x1 : Vec F S768x2304 .f32) : Vec F S512x2304 .bf16 :=
  View.canon [⟨whole0_2, k0_pay1 (View.ld x0 whole0_0) (View.ld x1 whole0_1)⟩]

theorem covers0_2 (p0 : Vec F S512x2304 .bf16) (y : S512x2304.Idx) :
    ∃ pc ∈ ([⟨whole0_2, p0⟩] : List (View.Piece (Elt F) S512x2304 .bf16)), y ∈ pc.1.set :=
  View.cover_of_tiled [⟨whole0_2, p0⟩] S512x2304.size (by rfl) y

set_option maxHeartbeats 1000000 in
/-- The body's triple: on whole staging buffers, the inputs holding `x` and the outputs anything, it runs to the end
    leaving the inputs as they were and each output at its stored value. -/
theorem body_triple0 (c : Dev nD) (E : Set ℕ) (i : grid0.Coords) (a0 : Memref sig .tc .vmem S512x768 .f32) (ha0 : a0.IsWhole) (a1 : Memref sig .tc .vmem S768x2304 .f32) (ha1 : a1.IsWhole) (a2 : Memref sig .tc .vmem S512x2304 .bf16) (ha2 : a2.IsWhole)
    (x0 : Vec F S512x768 .f32) (x1 : Vec F S768x2304 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored0_2 i x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- The pipeline's proof data on core `c`: the arrays as the call finds them; after the body at point `t` each input's
    buffer at its block and each output's at the stored value of the input blocks; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => stored0_2 (grid0.coords t) (blockAt0 V c 0 t) (blockAt0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = stored0_2 (grid0.coords t) (blockAt0 V c 0 t) (blockAt0 V c 1 t) := by dsimp only [data0]
theorem staged0_0 (c : Dev nD) (t : Fin cfg0.N) (d) : (data0 V c).before 0 t d = blockAt0 V c 0 t :=
  staged0_0_of V (data0 V c) (data0_A V c 0) (data0_after_0 V c) t d
theorem staged0_1 (c : Dev nD) (t : Fin cfg0.N) (d) : (data0 V c).before 1 t d = blockAt0 V c 1 t :=
  staged0_1_of V (data0 V c) (data0_A V c 1) (data0_after_1 V c) t d

/-- What the body is called with at point `t`, -/
def bodyBefore0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def bodyAfter0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body_at0 (c : Dev nD) (t : Fin cfg0.N) :
    bodyBefore0 V c t ⊢ wp frame (wpE (defs₀ (F := F)) Variants.none c none) Set.univ (bodyAt0 t) (fun _ => bodyAfter0 V c t) := by
  unfold bodyBefore0 bodyAfter0 bodyAt0
  simp only [staged0_0, staged0_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body_triple0 c Set.univ (grid0.coords t) _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (data0 (F := F) V c) (defs₀ (F := F)) Variants.none () Set.univ := fun t => by
  rw [bigSep_W0, bigSep_W0]
  exact body_at0 V c t

end Cert.KernelIdeal.Stages

end
-- ==== Proof.IdealStage1.lean ====
import proofs.«172513_j47966194761863_2_alg».proof.Proof.Gen.KernelIdeal.Launch
import proofs.«172513_j47966194761863_2_alg».proof.Proof.Gen.KernelIdeal.Skeleton
import proofs.«172513_j47966194761863_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Pallas call 1: causal attention of one query tile against the whole keys and values of its head

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or its index
    has not moved since the last fetch. -/
theorem staged1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the point fetches it or its index
    has not moved since the last fetch. -/
theorem staged1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- An input window's current staging buffer holds its block at every point, whether the point fetches it or its index
    has not moved since the last fetch. -/
theorem staged1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The body reads and writes every staging buffer whole. -/
abbrev whole1_0 : Rect S1x256x64 := Rect.unit (s := S1x256x64) ![0, 0, 0] S1x256x64.size inb_S1x256x64_S1x256x64_0_0_0
abbrev whole1_1 : Rect S1x2048x64 := Rect.unit (s := S1x2048x64) ![0, 0, 0] S1x2048x64.size inb_S1x2048x64_S1x2048x64_0_0_0
abbrev whole1_2 : Rect S1x2048x64 := Rect.unit (s := S1x2048x64) ![0, 0, 0] S1x2048x64.size inb_S1x2048x64_S1x2048x64_0_0_0
abbrev whole1_3 : Rect S1x256x64 := Rect.unit (s := S1x256x64) ![0, 0, 0] S1x256x64.size inb_S1x256x64_S1x256x64_0_0_0
abbrev whole1_4 : Rect S1x256x2048 := Rect.unit (s := S1x256x2048) ![0, 0, 0] S1x256x2048.size inb_S1x256x2048_S1x256x2048_0_0_0

/-- What the body leaves in output window 3's staging buffer, from the input blocks: its one whole-buffer store. -/
def stored1_3 (i : grid1.Coords) (x0 : Vec F S1x256x64 .bf16) (x1 : Vec F S1x2048x64 .bf16) (x2 : Vec F S1x2048x64 .bf16) : Vec F S1x256x64 .bf16 :=
  View.canon [⟨whole1_3, k1_pay1 (k1_pay4 i (View.ld x0 whole1_0) (View.ld x1 whole1_1) (View.ld x2 whole1_2))⟩]

theorem covers1_3 (p0 : Vec F S1x256x64 .bf16) (y : S1x256x64.Idx) :
    ∃ pc ∈ ([⟨whole1_3, p0⟩] : List (View.Piece (Elt F) S1x256x64 .bf16)), y ∈ pc.1.set :=
  View.cover_of_tiled [⟨whole1_3, p0⟩] S1x256x64.size (by rfl) y

/-- What the body leaves in output window 4's staging buffer, from the input blocks: its one whole-buffer store. -/
def stored1_4 (i : grid1.Coords) (x0 : Vec F S1x256x64 .bf16) (x1 : Vec F S1x2048x64 .bf16) (x2 : Vec F S1x2048x64 .bf16) : Vec F S1x256x2048 .f32 :=
  View.canon [⟨whole1_4, k1_pay3 i (View.ld x0 whole1_0) (View.ld x1 whole1_1)⟩]

theorem covers1_4 (p0 : Vec F S1x256x2048 .f32) (y : S1x256x2048.Idx) :
    ∃ pc ∈ ([⟨whole1_4, p0⟩] : List (View.Piece (Elt F) S1x256x2048 .f32)), y ∈ pc.1.set :=
  View.cover_of_tiled [⟨whole1_4, p0⟩] S1x256x2048.size (by rfl) y

set_option maxHeartbeats 1000000 in
/-- The body's triple: on whole staging buffers, the inputs holding `x` and the outputs anything, it runs to the end
    leaving the inputs as they were and each output at its stored value. -/
theorem body_triple1 (c : Dev nD) (E : Set ℕ) (i : grid1.Coords) (a0 : Memref sig .tc .vmem S1x256x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x256x64 .bf16) (ha3 : a3.IsWhole) (a4 : Memref sig .tc .vmem S1x256x2048 .f32) (ha4 : a4.IsWhole)
    (x0 : Vec F S1x256x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (stored1_3 i x0 x1 x2) ∗ owns (c : Thread nD τ) a4 fullShare (stored1_4 i x0 x1 x2)) -∗ K ⟨⟩))
      ⊢ wp frame (wpE (defs₀ (F := F)) Variants.none c none) E (cc1__attn_kernel i a0 ha0 a1 ha1 a2 ha2 a3 ha3 a4 ha4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_3 _)
  iexists _; isplitr
  swap; · iexact H4
  ipureintro
  exact View.read_writes_eq_canon _ _ _ (covers1_4 _)

/-- The pipeline's proof data on core `c`: the arrays as the call finds them; after the body at point `t` each input's
    buffer at its block and each output's at the stored value of the input blocks; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => stored1_3 (grid1.coords t) (blockAt1 V c 0 t) (blockAt1 V c 1 t) (blockAt1 V c 2 t)
    | ⟨4, _⟩ => stored1_4 (grid1.coords t) (blockAt1 V c 0 t) (blockAt1 V c 1 t) (blockAt1 V c 2 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = stored1_3 (grid1.coords t) (blockAt1 V c 0 t) (blockAt1 V c 1 t) (blockAt1 V c 2 t) := by dsimp only [data1]
theorem data1_after_4 (c : Dev nD) (t : Fin cfg1.N) : (data1 V c).after 4 t = stored1_4 (grid1.coords t) (blockAt1 V c 0 t) (blockAt1 V c 1 t) (blockAt1 V c 2 t) := by dsimp only [data1]
theorem staged1_0 (c : Dev nD) (t : Fin cfg1.N) (d) : (data1 V c).before 0 t d = blockAt1 V c 0 t :=
  staged1_0_of V (data1 V c) (data1_A V c 0) (data1_after_0 V c) t d
theorem staged1_1 (c : Dev nD) (t : Fin cfg1.N) (d) : (data1 V c).before 1 t d = blockAt1 V c 1 t :=
  staged1_1_of V (data1 V c) (data1_A V c 1) (data1_after_1 V c) t d
theorem staged1_2 (c : Dev nD) (t : Fin cfg1.N) (d) : (data1 V c).before 2 t d = blockAt1 V c 2 t :=
  staged1_2_of V (data1 V c) (data1_A V c 2) (data1_after_2 V c) t d

/-- What the body is called with at point `t`, -/
def bodyBefore1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d)))

/-- and what it returns. -/
def bodyAfter1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t))

theorem body_at1 (c : Dev nD) (t : Fin cfg1.N) :
    bodyBefore1 V c t ⊢ wp frame (wpE (defs₀ (F := F)) Variants.none c none) Set.univ (bodyAt1 t) (fun _ => bodyAfter1 V c t) := by
  unfold bodyBefore1 bodyAfter1 bodyAt1
  simp only [staged1_0, staged1_1, staged1_2]
  rw [show (data1 V c).Φ t.succ = (data1 V c).Φ t.castSucc from rfl,
    show (data1 V c).owesAt () t.succ = (data1 V c).owesAt () t.castSucc from rfl,
    data1_after_0, data1_after_1, data1_after_2, data1_after_3, data1_after_4]
  iintro ⟨HΦ, Ho, ⟨%d0, H0⟩, ⟨%d1, H1⟩, ⟨%d2, H2⟩, ⟨%d3, H3⟩, ⟨%d4, H4⟩⟩
  iapply (body_triple1 c Set.univ (grid1.coords t) _ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation1 (c : Dev nD) : BodyObligation (data1 (F := F) V c) (defs₀ (F := F)) Variants.none () Set.univ := fun t => by
  rw [bigSep_W1, bigSep_W1]
  exact body_at1 V c t

end Cert.KernelIdeal.Stages

end
-- ==== Proof.IdealStage2.lean ====
import proofs.«172513_j47966194761863_2_alg».proof.Proof.Gen.KernelIdeal.Launch
import proofs.«172513_j47966194761863_2_alg».proof.Proof.Gen.KernelIdeal.Skeleton
import proofs.«172513_j47966194761863_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Pallas call 2: the output projection: a row block of the attention output times the whole weight matrix

Everything here is stated at a parameter `V`, the contents of the core's buffers when the call is entered. -/

variable (V : (c : Dev nD) → (b : Ref sig .tc) → Buf (Elt F) ((c : Thread nD τ).loc b))

/-- The block of window `w` at grid point `t`, read off the window's array as the call finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or its index
    has not moved since the last fetch. -/
theorem staged2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- An input window's current staging buffer holds its block at every point, whether the point fetches it or its index
    has not moved since the last fetch. -/
theorem staged2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The body reads and writes every staging buffer whole. -/
abbrev whole2_0 : Rect S512x768 := Rect.unit (s := S512x768) ![0, 0] S512x768.size inb_S512x768_S512x768_0_0
abbrev whole2_1 : Rect S768x768 := Rect.unit (s := S768x768) ![0, 0] S768x768.size inb_S768x768_S768x768_0_0
abbrev whole2_2 : Rect S512x768 := Rect.unit (s := S512x768) ![0, 0] S512x768.size inb_S512x768_S512x768_0_0

/-- What the body leaves in output window 2's staging buffer, from the input blocks: its one whole-buffer store. -/
def stored2_2 (i : grid2.Coords) (x0 : Vec F S512x768 .bf16) (x1 : Vec F S768x768 .f32) : Vec F S512x768 .f32 :=
  View.canon [⟨whole2_2, k2_pay1 (View.ld x0 whole2_0) (View.ld x1 whole2_1)⟩]

theorem covers2_2 (p0 : Vec F S512x768 .f32) (y : S512x768.Idx) :
    ∃ pc ∈ ([⟨whole2_2, p0⟩] : List (View.Piece (Elt F) S512x768 .f32)), y ∈ pc.1.set :=
  View.cover_of_tiled [⟨whole2_2, p0⟩] S512x768.size (by rfl) y

set_option maxHeartbeats 1000000 in
/-- The body's triple: on whole staging buffers, the inputs holding `x` and the outputs anything, it runs to the end
    leaving the inputs as they were and each output at its stored value. -/
theorem body_triple2 (c : Dev nD) (E : Set ℕ) (i : grid2.Coords) (a0 : Memref sig .tc .vmem S512x768 .bf16) (ha0 : a0.IsWhole) (a1 : Memref sig .tc .vmem S768x768 .f32) (ha1 : a1.IsWhole) (a2 : Memref sig .tc .vmem S512x768 .f32) (ha2 : a2.IsWhole)
    (x0 : Vec F S512x768 .bf16) (x1 : Vec F S768x768 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored2_2 i x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2_2 _)

/-- The pipeline's proof data on core `c`: the arrays as the call finds them; after the body at point `t` each input's
    buffer at its block and each output's at the stored value of the input blocks; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2_2 (grid2.coords t) (blockAt2 V c 0 t) (blockAt2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = stored2_2 (grid2.coords t) (blockAt2 V c 0 t) (blockAt2 V c 1 t) := by dsimp only [data2]
theorem staged2_0 (c : Dev nD) (t : Fin cfg2.N) (d) : (data2 V c).before 0 t d = blockAt2 V c 0 t :=
  staged2_0_of V (data2 V c) (data2_A V c 0) (data2_after_0 V c) t d
theorem staged2_1 (c : Dev nD) (t : Fin cfg2.N) (d) : (data2 V c).before 1 t d = blockAt2 V c 1 t :=
  staged2_1_of V (data2 V c) (data2_A V c 1) (data2_after_1 V c) t d

/-- What the body is called with at point `t`, -/
def bodyBefore2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def bodyAfter2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body_at2 (c : Dev nD) (t : Fin cfg2.N) :
    bodyBefore2 V c t ⊢ wp frame (wpE (defs₀ (F := F)) Variants.none c none) Set.univ (bodyAt2 t) (fun _ => bodyAfter2 V c t) := by
  unfold bodyBefore2 bodyAfter2 bodyAt2
  simp only [staged2_0, staged2_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (body_triple2 c Set.univ (grid2.coords t) _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (data2 (F := F) V c) (defs₀ (F := F)) Variants.none () Set.univ := fun t => by
  rw [bigSep_W2, bigSep_W2]
  exact body_at2 V c t

end Cert.KernelIdeal.Stages

end
-- ==== Proof.IdealRun.lean ====
import proofs.«172513_j47966194761863_2_alg».proof.Proof.Gen.KernelIdeal.Launch
import proofs.«172513_j47966194761863_2_alg».proof.Proof.Gen.KernelIdeal.Regions
import proofs.«172513_j47966194761863_2_alg».proof.Proof.Gen.KernelIdeal.Skeleton
import proofs.«172513_j47966194761863_2_alg».proof.Proof.Gen.KernelIdeal.Points
import proofs.«172513_j47966194761863_2_alg».proof.Proof.IdealStage0
import proofs.«172513_j47966194761863_2_alg».proof.Proof.IdealStage1
import proofs.«172513_j47966194761863_2_alg».proof.Proof.IdealStage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The whole program as seven segments: four stretches of host operations around three Pallas calls

The contents of a core's buffers at each boundary are a fold from the launch memory: a host stretch applies its
operations; a Pallas call leaves its windows' arrays at what its write-backs make of them and every other buffer alone. -/

variable (m : (ℓ : Loc nD τ sig) → Buf (Elt F) ℓ) (ρ : Dev nD → PrngReg)

/-- At launch. -/
abbrev B0 : Dev nD → Valuation τ sig (Elt F) := fun c b => (s₀ m ρ).mem ((c : Dev nD), b)
/-- After host stretch 0: what Pallas call 0 is entered with. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After Pallas call 0. -/
def B2 (c : Dev nD) : Valuation τ sig (Elt F) :=
  Pipeline.withArrays spec0 c (B1 m ρ c) fun w => (data0 (E1 m ρ) c).arrAt w cfg0.N
theorem B2_arr (c : Dev nD) (w : Fin cfg0.W) :
    B2 m ρ c (Proc.devRef .tc (Pipeline.arrRef spec0 w)) = (data0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (data0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After host stretch 1: what Pallas call 1 is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After Pallas call 1. -/
def B4 (c : Dev nD) : Valuation τ sig (Elt F) :=
  Pipeline.withArrays spec1 c (B3 m ρ c) fun w => (data1 (E3 m ρ) c).arrAt w cfg1.N
theorem B4_arr (c : Dev nD) (w : Fin cfg1.W) :
    B4 m ρ c (Proc.devRef .tc (Pipeline.arrRef spec1 w)) = (data1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (data1 (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After host stretch 2: what Pallas call 2 is entered with. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After Pallas call 2. -/
def B6 (c : Dev nD) : Valuation τ sig (Elt F) :=
  Pipeline.withArrays spec2 c (B5 m ρ c) fun w => (data2 (E5 m ρ) c).arrAt w cfg2.N
theorem B6_arr (c : Dev nD) (w : Fin cfg2.W) :
    B6 m ρ c (Proc.devRef .tc (Pipeline.arrRef spec2 w)) = (data2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (data2 (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After the last host stretch: at the return. -/
abbrev B7 : Dev nD → Valuation τ sig (Elt F) := fun c => StableHlo.after hostOps3 (B6 m ρ c)

/-! ## No segment writes an argument -/

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (r := main_arg4) (by decide)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl

/-! ## The proof data family and the thread state -/

/-- Every pipeline's proof data, each at its call's entry contents. -/
def allData : (p : Fin 3) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E3 m ρ) c
  | ⟨2, _⟩ => fun c => data2 (E5 m ρ) c
abbrev noVariants : Variants := Variants.none
/-- No core owes another anything. -/
abbrev noPairs : GSem nD τ sig → Finset Unit := fun _ => ∅
abbrev noLevel : GSem nD τ sig → Unit → ℕ := fun _ _ => 0
/-- What rides beside the buffers through every segment: the core's generator register at some state and its debts, none. -/
abbrev Beside (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev AtReturn (c : Dev nD) : sProp 𝕄 := iprop(StableHlo.held (c : Thread nD τ) (Pipeline.ucRefs τ sig) (B7 m ρ c) ∗ ∃ r, prngReg c r)

/-- The last host stretch's exit state is the state at the return beside the debts. -/
theorem at_return (c : Dev nD) :
    (iprop(StableHlo.held (c : Thread nD τ) (Pipeline.ucRefs τ sig) (B7 m ρ c) ∗ Beside c) : sProp 𝕄)
      ⊢ iprop(AtReturn m ρ c ∗ ∃ W, owes (c : Thread nD τ) (0 : CellTallies nD τ sig Unit) W) := by
  unfold AtReturn Beside
  iintro ⟨Hh, Hp, HO⟩
  isplitl [Hh Hp]
  · isplitl [Hh]; · iexact Hh
    iexact Hp
  iexact HO

/-! ## The Pallas calls as segments -/

set_option backward.isDefEq.respectTransparency.types false in
/-- Pallas call 0: entered from every unscoped buffer at `B1`, left at `B2`. Its arrays are split out of the
    unscoped buffers and put back at the exit contents; the generator register goes into the invariant and out. -/
def call0 : Pipeline.RegionSeg (pcfgs (F := F)) adm (allData m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (allData m ρ) launch0.win launch0.arr_whole c
      ((allData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allData m ρ) ((allData m ρ 0 c).share_full fun _ => rfl)
      (E1 m ρ c) (E2 m ρ c) ((allData m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1: entered from every unscoped buffer at `B3`, left at `B4`. Its arrays are split out of the
    unscoped buffers and put back at the exit contents; the generator register goes into the invariant and out. -/
def call1 : Pipeline.RegionSeg (pcfgs (F := F)) adm (allData m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ Beside c)
  post c := iprop(StableHlo.held (c : Thread nD τ) (Pipeline.ucRefs τ sig) (B4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (allData m ρ) launch1.win launch1.arr_whole c
      ((allData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allData m ρ) ((allData m ρ 1 c).share_full fun _ => rfl)
      (E3 m ρ c) (E4 m ρ c) ((allData m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2: entered from every unscoped buffer at `B5`, left at `B6`. Its arrays are split out of the
    unscoped buffers and put back at the exit contents; the generator register goes into the invariant and out. -/
def call2 : Pipeline.RegionSeg (pcfgs (F := F)) adm (allData m ρ) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noPairs noLevel 2 fun _ _ => rfl
  pre c := iprop(StableHlo.held (c : Thread nD τ) (Pipeline.ucRefs τ sig) (B5 m ρ c) ∗ Beside c)
  post c := iprop(StableHlo.held (c : Thread nD τ) (Pipeline.ucRefs τ sig) (B6 m ρ c) ∗ Beside c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (allData m ρ) launch2.win launch2.arr_whole c
      ((allData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allData m ρ) ((allData m ρ 2 c).share_full fun _ => rfl)
      (E5 m ρ c) (E6 m ρ c) ((allData m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev allSegs : List (Pipeline.Seg (pcfgs (F := F)) adm (allData m ρ) () defs₀ noVariants noPairs noLevel) :=
  [ .host (hostSeg hostOps0 hostOps0_sub hostOps0_fresh (B0 m ρ)),
    .region (call0 m ρ),
    .host (hostSeg hostOps1 hostOps1_sub hostOps1_fresh (B2 m ρ)),
    .region (call1 m ρ),
    .host (hostSeg hostOps2 hostOps2_sub hostOps2_fresh (B4 m ρ)),
    .region (call2 m ρ),
    .host (hostSeg hostOps3 hostOps3_sub hostOps3_fresh (B6 m ρ)) ]

theorem main_is_segs (c : Dev nD) : main (F := F) c = Pipeline.Seg.run (allSegs m ρ) := (main_chain c).trans (by chain_rfl)

set_option backward.isDefEq.respectTransparency.types false in
/-- THE RUN. From any memory with zero counters every weakly fair execution of the program terminates, nothing faulting,
    and in every final state every unscoped buffer of every core holds the last boundary's contents `B7`. -/
theorem run_to_B7 : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (allData m ρ) () cellOf_inj emb₁ defs₀ noVariants noPairs noLevel m ρ main (allSegs m ρ)
    (fun c Q => by rw [main_is_segs m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun _ => .rfl, fun _ => .rfl, fun _ => .rfl, fun c => at_return m ρ c⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: the argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c _ (mem_unscoped main_arg0 (by decide))).trans (B7_main_arg0 m ρ c),
    (h c _ (mem_unscoped main_arg1 (by decide))).trans (B7_main_arg1 m ρ c),
    (h c _ (mem_unscoped main_arg2 (by decide))).trans (B7_main_arg2 m ρ c),
    (h c _ (mem_unscoped main_arg3 (by decide))).trans (B7_main_arg3 m ρ c),
    (h c _ (mem_unscoped main_arg4 (by decide))).trans (B7_main_arg4 m ρ c)⟩) (run_to_B7 m ρ)

end Cert.KernelIdeal.Stages

end
-- ==== Proof.IdealMatmuls.lean ====
import proofs.«172513_j47966194761863_2_alg».proof.Proof.Gen.KernelIdeal
import Idealize.ShloMosaic.Lib.ValueIdx
import Idealize.ShloMosaic.PureOps.Ideal.Laws

noncomputable section

/-! # The four matrix products of the kernel bodies, read at an entry

Each is a plain rows × contraction by contraction × columns product into a zero accumulator; at the exact instance its
(p, q) entry is the sum over the contraction coordinate of left (p, k) times right (k, q). -/

namespace Cert.Attn

open Idealize.ShloMosaic Idealize.ShloMosaic.ValueIdx Cert.KernelIdeal Cert.KernelIdeal.Gen

theorem lhs_qkv_row (j : S512x2304.Idx) (κ : dot_S512x768_S768x2304_S512x2304_1_0_0_1_n_n.contr.Idx) : (dot_S512x768_S768x2304_S512x2304_1_0_0_1_n_n.lhsIdx j κ 0).val = (j 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
theorem lhs_qkv_contr (j : S512x2304.Idx) (κ : dot_S512x768_S768x2304_S512x2304_1_0_0_1_n_n.contr.Idx) : (dot_S512x768_S768x2304_S512x2304_1_0_0_1_n_n.lhsIdx j κ 1).val = (κ ⟨0, by decide⟩).val :=
  dot_S512x768_S768x2304_S512x2304_1_0_0_1_n_n.lhsIdx_val_of_single rfl j κ
theorem rhs_qkv_contr (j : S512x2304.Idx) (κ : dot_S512x768_S768x2304_S512x2304_1_0_0_1_n_n.contr.Idx) : (dot_S512x768_S768x2304_S512x2304_1_0_0_1_n_n.rhsIdx j κ 0).val = (κ ⟨0, by decide⟩).val :=
  dot_S512x768_S768x2304_S512x2304_1_0_0_1_n_n.rhsIdx_val_of_single rfl j κ
theorem rhs_qkv_col (j : S512x2304.Idx) (κ : dot_S512x768_S768x2304_S512x2304_1_0_0_1_n_n.contr.Idx) : (dot_S512x768_S768x2304_S512x2304_1_0_0_1_n_n.rhsIdx j κ 1).val = (j 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- Entry (p, q) of the 512 × 768 by 768 × 2304 product. -/
theorem mm_qkv {φ₁ φ₂ : FTy} (l : FVec Ideal S512x768 φ₁) (r : FVec Ideal S768x2304 φ₂) (p : Fin 512) (q : Fin 2304) :
    matmul dot_S512x768_S768x2304_S512x2304_1_0_0_1_n_n none l r (constant S512x2304 .f32 0x00000000#32) (ix2 p q) = ∑ k : Fin 768, l (ix2 p k) * r (ix2 k q) := by
  simp only [matmul]
  rw [Ideal.matmul_constant_zero_apply, ← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have el : dot_S512x768_S768x2304_S512x2304_1_0_0_1_n_n.lhsIdx (ix2 p q) ((contrEquiv1 dot_S512x768_S768x2304_S512x2304_1_0_0_1_n_n 768 rfl rfl).symm k) = ix2 p k := funext fun a => Fin.ext (by
    match a with
    | ⟨0, _⟩ => exact lhs_qkv_row _ _
    | ⟨1, _⟩ => exact (lhs_qkv_contr _ _).trans hk)
  have er : dot_S512x768_S768x2304_S512x2304_1_0_0_1_n_n.rhsIdx (ix2 p q) ((contrEquiv1 dot_S512x768_S768x2304_S512x2304_1_0_0_1_n_n 768 rfl rfl).symm k) = ix2 k q := funext fun a => Fin.ext (by
    match a with
    | ⟨0, _⟩ => exact (rhs_qkv_contr _ _).trans hk
    | ⟨1, _⟩ => exact rhs_qkv_col _ _)
  rw [el, er]

theorem lhs_scores_row (j : S256x2048.Idx) (κ : dot_S256x64_S64x2048_S256x2048_1_0_0_1_n_n.contr.Idx) : (dot_S256x64_S64x2048_S256x2048_1_0_0_1_n_n.lhsIdx j κ 0).val = (j 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_scores_contr (j : S256x2048.Idx) (κ : dot_S256x64_S64x2048_S256x2048_1_0_0_1_n_n.contr.Idx) : (dot_S256x64_S64x2048_S256x2048_1_0_0_1_n_n.lhsIdx j κ 1).val = (κ ⟨0, by decide⟩).val :=
  dot_S256x64_S64x2048_S256x2048_1_0_0_1_n_n.lhsIdx_val_of_single rfl j κ
theorem rhs_scores_contr (j : S256x2048.Idx) (κ : dot_S256x64_S64x2048_S256x2048_1_0_0_1_n_n.contr.Idx) : (dot_S256x64_S64x2048_S256x2048_1_0_0_1_n_n.rhsIdx j κ 0).val = (κ ⟨0, by decide⟩).val :=
  dot_S256x64_S64x2048_S256x2048_1_0_0_1_n_n.rhsIdx_val_of_single rfl j κ
theorem rhs_scores_col (j : S256x2048.Idx) (κ : dot_S256x64_S64x2048_S256x2048_1_0_0_1_n_n.contr.Idx) : (dot_S256x64_S64x2048_S256x2048_1_0_0_1_n_n.rhsIdx j κ 1).val = (j 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- Entry (p, q) of the 256 × 64 by 64 × 2048 product. -/
theorem mm_scores {φ₁ φ₂ : FTy} (l : FVec Ideal S256x64 φ₁) (r : FVec Ideal S64x2048 φ₂) (p : Fin 256) (q : Fin 2048) :
    matmul dot_S256x64_S64x2048_S256x2048_1_0_0_1_n_n none l r (constant S256x2048 .f32 0x00000000#32) (ix2 p q) = ∑ k : Fin 64, l (ix2 p k) * r (ix2 k q) := by
  simp only [matmul]
  rw [Ideal.matmul_constant_zero_apply, ← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 p q) ((contrEquiv1 dot_S256x64_S64x2048_S256x2048_1_0_0_1_n_n 64 rfl rfl).symm k) = ix2 p k := funext fun a => Fin.ext (by
    match a with
    | ⟨0, _⟩ => exact lhs_scores_row _ _
    | ⟨1, _⟩ => exact (lhs_scores_contr _ _).trans hk)
  have er : dot_S256x64_S64x2048_S256x2048_1_0_0_1_n_n.rhsIdx (ix2 p q) ((contrEquiv1 dot_S256x64_S64x2048_S256x2048_1_0_0_1_n_n 64 rfl rfl).symm k) = ix2 k q := funext fun a => Fin.ext (by
    match a with
    | ⟨0, _⟩ => exact (rhs_scores_contr _ _).trans hk
    | ⟨1, _⟩ => exact rhs_scores_col _ _)
  rw [el, er]

theorem lhs_mix_row (j : S256x64.Idx) (κ : dot_S256x2048_S2048x64_S256x64_1_0_0_1_n_n.contr.Idx) : (dot_S256x2048_S2048x64_S256x64_1_0_0_1_n_n.lhsIdx j κ 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_mix_contr (j : S256x64.Idx) (κ : dot_S256x2048_S2048x64_S256x64_1_0_0_1_n_n.contr.Idx) : (dot_S256x2048_S2048x64_S256x64_1_0_0_1_n_n.lhsIdx j κ 1).val = (κ ⟨0, by decide⟩).val :=
  dot_S256x2048_S2048x64_S256x64_1_0_0_1_n_n.lhsIdx_val_of_single rfl j κ
theorem rhs_mix_contr (j : S256x64.Idx) (κ : dot_S256x2048_S2048x64_S256x64_1_0_0_1_n_n.contr.Idx) : (dot_S256x2048_S2048x64_S256x64_1_0_0_1_n_n.rhsIdx j κ 0).val = (κ ⟨0, by decide⟩).val :=
  dot_S256x2048_S2048x64_S256x64_1_0_0_1_n_n.rhsIdx_val_of_single rfl j κ
theorem rhs_mix_col (j : S256x64.Idx) (κ : dot_S256x2048_S2048x64_S256x64_1_0_0_1_n_n.contr.Idx) : (dot_S256x2048_S2048x64_S256x64_1_0_0_1_n_n.rhsIdx j κ 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry (p, q) of the 256 × 2048 by 2048 × 64 product. -/
theorem mm_mix {φ₁ φ₂ : FTy} (l : FVec Ideal S256x2048 φ₁) (r : FVec Ideal S2048x64 φ₂) (p : Fin 256) (q : Fin 64) :
    matmul dot_S256x2048_S2048x64_S256x64_1_0_0_1_n_n none l r (constant S256x64 .f32 0x00000000#32) (ix2 p q) = ∑ k : Fin 2048, l (ix2 p k) * r (ix2 k q) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p q) ((contrEquiv1 dot_S256x2048_S2048x64_S256x64_1_0_0_1_n_n 2048 rfl rfl).symm k) = ix2 p k := funext fun a => Fin.ext (by
    match a with
    | ⟨0, _⟩ => exact lhs_mix_row _ _
    | ⟨1, _⟩ => exact (lhs_mix_contr _ _).trans hk)
  have er : dot_S256x2048_S2048x64_S256x64_1_0_0_1_n_n.rhsIdx (ix2 p q) ((contrEquiv1 dot_S256x2048_S2048x64_S256x64_1_0_0_1_n_n 2048 rfl rfl).symm k) = ix2 k q := funext fun a => Fin.ext (by
    match a with
    | ⟨0, _⟩ => exact (rhs_mix_contr _ _).trans hk
    | ⟨1, _⟩ => exact rhs_mix_col _ _)
  rw [el, er]

theorem lhs_out_row (j : S512x768.Idx) (κ : dot_S512x768_S768x768_S512x768_1_0_0_1_n_n.contr.Idx) : (dot_S512x768_S768x768_S512x768_1_0_0_1_n_n.lhsIdx j κ 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem lhs_out_contr (j : S512x768.Idx) (κ : dot_S512x768_S768x768_S512x768_1_0_0_1_n_n.contr.Idx) : (dot_S512x768_S768x768_S512x768_1_0_0_1_n_n.lhsIdx j κ 1).val = (κ ⟨0, by decide⟩).val :=
  dot_S512x768_S768x768_S512x768_1_0_0_1_n_n.lhsIdx_val_of_single rfl j κ
theorem rhs_out_contr (j : S512x768.Idx) (κ : dot_S512x768_S768x768_S512x768_1_0_0_1_n_n.contr.Idx) : (dot_S512x768_S768x768_S512x768_1_0_0_1_n_n.rhsIdx j κ 0).val = (κ ⟨0, by decide⟩).val :=
  dot_S512x768_S768x768_S512x768_1_0_0_1_n_n.rhsIdx_val_of_single rfl j κ
theorem rhs_out_col (j : S512x768.Idx) (κ : dot_S512x768_S768x768_S512x768_1_0_0_1_n_n.contr.Idx) : (dot_S512x768_S768x768_S512x768_1_0_0_1_n_n.rhsIdx j κ 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- Entry (p, q) of the 512 × 768 by 768 × 768 product. -/
theorem mm_out {φ₁ φ₂ : FTy} (l : FVec Ideal S512x768 φ₁) (r : FVec Ideal S768x768 φ₂) (p : Fin 512) (q : Fin 768) :
    matmul dot_S512x768_S768x768_S512x768_1_0_0_1_n_n none l r (constant S512x768 .f32 0x00000000#32) (ix2 p q) = ∑ k : Fin 768, l (ix2 p k) * r (ix2 k q) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p q) ((contrEquiv1 dot_S512x768_S768x768_S512x768_1_0_0_1_n_n 768 rfl rfl).symm k) = ix2 p k := funext fun a => Fin.ext (by
    match a with
    | ⟨0, _⟩ => exact lhs_out_row _ _
    | ⟨1, _⟩ => exact (lhs_out_contr _ _).trans hk)
  have er : dot_S512x768_S768x768_S512x768_1_0_0_1_n_n.rhsIdx (ix2 p q) ((contrEquiv1 dot_S512x768_S768x768_S512x768_1_0_0_1_n_n 768 rfl rfl).symm k) = ix2 k q := funext fun a => Fin.ext (by
    match a with
    | ⟨0, _⟩ => exact (rhs_out_contr _ _).trans hk
    | ⟨1, _⟩ => exact rhs_out_col _ _)
  rw [el, er]

end Cert.Attn

end
-- ==== Proof.IdealProj.lean ====
import proofs.«172513_j47966194761863_2_alg».proof.Proof.IdealStage0
import proofs.«172513_j47966194761863_2_alg».proof.Proof.IdealStage2
import proofs.«172513_j47966194761863_2_alg».proof.Proof.IdealMatmuls
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Attn

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Stages

/-! # The two projection calls' arrays after their calls

Point `t` of the eight writes rows 512 t … 512 t + 511, each the row of its input block times the whole weight matrix, so
each array ends as the whole product. -/

variable (V : (c : Dev nD) → (b : Ref sig .tc) → Buf (Elt Ideal) ((c : Thread nD τ).loc b))

theorem zeros_two : (![0, 0] : Fin 2 → Nat) = fun _ => 0 := funext fun a => by fin_cases a <;> rfl

/-! ## The fused query/key/value projection -/

/-- Rows times the weight matrix: entry (r, j) is the sum over k of A (r, k) · B (k, j). -/
def rowsTimesWide (A : S4096x768.Idx → EReal) (B : S768x2304.Idx → EReal) : S4096x2304.Idx → EReal :=
  fun i => ∑ k : Fin 768, A (ix2 (⟨(i 0).val, (i 0).isLt⟩ : Fin 4096) k) * B (ix2 k (⟨(i 1).val, (i 1).isLt⟩ : Fin 2304))

/-- The body's stored value at an entry of the block. -/
theorem pay_0 (x0 : Vec Ideal S512x768 .f32) (x1 : Vec Ideal S768x2304 .f32) (p : Fin 512) (q : Fin 2304) :
    k0_pay1 (F := Ideal) x0 x1 (ix2 p q) = ∑ k : Fin 768, x0 (ix2 p k) * x1 (ix2 k q) := by
  unfold k0_pay1
  rw [truncf_apply]
  refine (mm_qkv _ _ p q).trans ?_
  refine Finset.sum_congr rfl fun k _ => ?_
  rw [truncf_apply, shapeCast_self, truncf_apply, shapeCast_self]

/-- The index maps over the grid: the row blocks move with the point, the weight block stays. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_0 (c : Dev nD) (t : Fin cfg0.N) :
    (data0 V c).flushed 2 t = ((cfg0.win 2).blk t).view.read (Elt Ideal) (rowsTimesWide (V c main_v5) (V c main_v3)) := by
  show (cfg0.win 2).cut (grid0.coords t) ((data0 V c).after 2 t) = _
  rw [data0_after_2]
  unfold stored0_2
  rw [View.canon_unit_zero zeros_two]
  simp only [View.ld_unit_zero (S := S512x768) zeros_two, View.ld_unit_zero (S := S768x2304) zeros_two]
  obtain ⟨e0, e1, e2, e3, e4, e5⟩ := index_facts0 t
  funext y
  obtain ⟨p, q, rfl⟩ : ∃ (p : Fin 512) (q : Fin 2304), y = ix2 p q := ⟨y 0, y 1, eq_ix2 y⟩
  refine (pay_0 _ _ p q).trans ?_
  have hb0 : ∀ y, blockAt0 V c 0 t y = V c main_v5 (((cfg0.win 0).blk t).view.emb y) := fun y => rfl
  have hb1 : ∀ y, blockAt0 V c 1 t y = V c main_v3 (((cfg0.win 1).blk t).view.emb y) := fun y => rfl
  have hr : ∀ (G : S4096x2304.Idx → EReal) y, View.read (Elt Ideal) ((View.whole main_v6).slice ((win0 2).rect t)) G y
      = G (((cfg0.win 2).blk t).view.emb y) := fun G y => rfl
  rw [hr]
  unfold rowsTimesWide
  refine Finset.sum_congr rfl fun k _ => ?_
  rw [hb0, hb1]
  refine congrArg₂ (· * ·) (congrArg (V c main_v5) (funext fun a => Fin.ext ?_)) (congrArg (V c main_v3) (funext fun a => Fin.ext ?_))
  · match a with
    | ⟨0, _⟩ => show win0_0.index t (0 : Fin 2) * 512 + 1 * p.val = win0_2.index t (0 : Fin 2) * 512 + 1 * p.val; omega
    | ⟨1, _⟩ => show win0_0.index t (1 : Fin 2) * 768 + 1 * k.val = k.val; omega
  · match a with
    | ⟨0, _⟩ => show win0_1.index t (0 : Fin 2) * 768 + 1 * k.val = k.val; omega
    | ⟨1, _⟩ => show win0_1.index t (1 : Fin 2) * 2304 + 1 * q.val = win0_2.index t (1 : Fin 2) * 2304 + 1 * q.val; omega

/-- An index of the array lies in point `t`'s block iff each coordinate lies in the block's range. -/
theorem mem_block_0 (t : Fin cfg0.N) (i : S4096x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v6).slice (win0_2.rect t)).set ↔ _
  rw [View.set_slice_whole, Rect.mem_set_unit]
  exact Iff.rfl

/-- Every row lies in the block of the point numbered by the row's block. -/
theorem covered_0 (i : S4096x2304.Idx) : ∃ t : Fin cfg0.N, (cfg0.win 2).flush t = true ∧ i ∈ ((cfg0.win 2).blk t).view.set := by
  have hi0 : (i 0).val < 4096 := (i 0).isLt
  have hi1 : (i 1).val < 2304 := (i 1).isLt
  let t : Fin cfg0.N := ⟨(i 0).val / 512, by show (i 0).val / 512 < grid0.N; rw [N_0]; omega⟩
  obtain ⟨e0, e1, e2, e3, e4, e5⟩ := index_facts0 t
  have ht : t.val = (i 0).val / 512 := rfl
  refine ⟨t, flush0_2 t, ?_⟩
  rw [mem_block_0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

/-- The array after the call is the whole product. -/
theorem final_0 (c : Dev nD) : (data0 V c).arrAt 2 cfg0.N = rowsTimesWide (V c main_v5) (V c main_v3) :=
  (data0 V c).arrAt_eq_of_cover 2 _ (fun t _ => flushed_0 V c t) (covered_0)

/-! ## The output projection -/

/-- Rows times the weight matrix: entry (r, j) is the sum over k of A (r, k) · B (k, j). -/
def rowsTimesSquare (A : S4096x768.Idx → EReal) (B : S768x768.Idx → EReal) : S4096x768.Idx → EReal :=
  fun i => ∑ k : Fin 768, A (ix2 (⟨(i 0).val, (i 0).isLt⟩ : Fin 4096) k) * B (ix2 k (⟨(i 1).val, (i 1).isLt⟩ : Fin 768))

/-- The body's stored value at an entry of the block. -/
theorem pay_2 (x0 : Vec Ideal S512x768 .bf16) (x1 : Vec Ideal S768x768 .f32) (p : Fin 512) (q : Fin 768) :
    k2_pay1 (F := Ideal) x0 x1 (ix2 p q) = ∑ k : Fin 768, x0 (ix2 p k) * x1 (ix2 k q) := by
  unfold k2_pay1
  refine (mm_out _ _ p q).trans ?_
  refine Finset.sum_congr rfl fun k _ => ?_
  rw [shapeCast_self, truncf_apply, shapeCast_self]

/-- The index maps over the grid: the row blocks move with the point, the weight block stays. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_2 (c : Dev nD) (t : Fin cfg2.N) :
    (data2 V c).flushed 2 t = ((cfg2.win 2).blk t).view.read (Elt Ideal) (rowsTimesSquare (V c main_v22) (V c main_v4)) := by
  show (cfg2.win 2).cut (grid2.coords t) ((data2 V c).after 2 t) = _
  rw [data2_after_2]
  unfold stored2_2
  rw [View.canon_unit_zero zeros_two]
  simp only [View.ld_unit_zero (S := S512x768) zeros_two, View.ld_unit_zero (S := S768x768) zeros_two]
  obtain ⟨e0, e1, e2, e3, e4, e5⟩ := index_facts2 t
  funext y
  obtain ⟨p, q, rfl⟩ : ∃ (p : Fin 512) (q : Fin 768), y = ix2 p q := ⟨y 0, y 1, eq_ix2 y⟩
  refine (pay_2 _ _ p q).trans ?_
  have hb0 : ∀ y, blockAt2 V c 0 t y = V c main_v22 (((cfg2.win 0).blk t).view.emb y) := fun y => rfl
  have hb1 : ∀ y, blockAt2 V c 1 t y = V c main_v4 (((cfg2.win 1).blk t).view.emb y) := fun y => rfl
  have hr : ∀ (G : S4096x768.Idx → EReal) y, View.read (Elt Ideal) ((View.whole main_v23).slice ((win2 2).rect t)) G y
      = G (((cfg2.win 2).blk t).view.emb y) := fun G y => rfl
  rw [hr]
  unfold rowsTimesSquare
  refine Finset.sum_congr rfl fun k _ => ?_
  rw [hb0, hb1]
  refine congrArg₂ (· * ·) (congrArg (V c main_v22) (funext fun a => Fin.ext ?_)) (congrArg (V c main_v4) (funext fun a => Fin.ext ?_))
  · match a with
    | ⟨0, _⟩ => show win2_0.index t (0 : Fin 2) * 512 + 1 * p.val = win2_2.index t (0 : Fin 2) * 512 + 1 * p.val; omega
    | ⟨1, _⟩ => show win2_0.index t (1 : Fin 2) * 768 + 1 * k.val = k.val; omega
  · match a with
    | ⟨0, _⟩ => show win2_1.index t (0 : Fin 2) * 768 + 1 * k.val = k.val; omega
    | ⟨1, _⟩ => show win2_1.index t (1 : Fin 2) * 768 + 1 * q.val = win2_2.index t (1 : Fin 2) * 768 + 1 * q.val; omega

/-- An index of the array lies in point `t`'s block iff each coordinate lies in the block's range. -/
theorem mem_block_2 (t : Fin cfg2.N) (i : S4096x768.Idx) :
    i ∈ ((cfg2.win 2).blk t).view.set ↔ ∀ a : Fin 2, win2_2.index t a * S512x768.size a ≤ (i a).val ∧ (i a).val < win2_2.index t a * S512x768.size a + S512x768.size a := by
  show i ∈ ((View.whole main_v23).slice (win2_2.rect t)).set ↔ _
  rw [View.set_slice_whole, Rect.mem_set_unit]
  exact Iff.rfl

/-- Every row lies in the block of the point numbered by the row's block. -/
theorem covered_2 (i : S4096x768.Idx) : ∃ t : Fin cfg2.N, (cfg2.win 2).flush t = true ∧ i ∈ ((cfg2.win 2).blk t).view.set := by
  have hi0 : (i 0).val < 4096 := (i 0).isLt
  have hi1 : (i 1).val < 768 := (i 1).isLt
  let t : Fin cfg2.N := ⟨(i 0).val / 512, by show (i 0).val / 512 < grid2.N; rw [N_2]; omega⟩
  obtain ⟨e0, e1, e2, e3, e4, e5⟩ := index_facts2 t
  have ht : t.val = (i 0).val / 512 := rfl
  refine ⟨t, flush2_2 t, ?_⟩
  rw [mem_block_2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 768 ≤ (i 1).val ∧ (i 1).val < win2_2.index t (1 : Fin 2) * 768 + 768; omega

/-- The array after the call is the whole product. -/
theorem final_2 (c : Dev nD) : (data2 V c).arrAt 2 cfg2.N = rowsTimesSquare (V c main_v22) (V c main_v4) :=
  (data2 V c).arrAt_eq_of_cover 2 _ (fun t _ => flushed_2 V c t) (covered_2)

end Cert.Attn

end
-- ==== Proof.Coords.lean ====
import Idealize.ShloMosaic.Lib.ValueIdx
import Idealize.ShloMosaic.PureOps.Ideal

noncomputable section

/-! # Coordinates shared by the two sides, and the softmax of a row -/

namespace Cert.Attn

open Idealize.ShloMosaic

/-- Head `12 b + hh` of the 24. -/
abbrev headOf (b : Fin 2) (hh : Fin 12) : Fin 24 := ⟨b.val * 12 + hh.val, by omega⟩
/-- Row `2048 b + t` of the 4096. -/
abbrev rowOf (b : Fin 2) (t : Fin 2048) : Fin 4096 := ⟨b.val * 2048 + t.val, by omega⟩
/-- Feature `64 hh + d` of the 768. -/
abbrev featOf (hh : Fin 12) (d : Fin 64) : Fin 768 := ⟨hh.val * 64 + d.val, by omega⟩

/-- Softmax of one row of scores: each score less the row's maximum, exponentiated, over the sum of those. -/
def softmaxRow (S : Fin 2048 → EReal) (k : Fin 2048) : EReal :=
  Ideal.div (Ideal.exp (S k - Finset.univ.fold max ⊥ S)) (∑ k' : Fin 2048, Ideal.exp (S k' - Finset.univ.fold max ⊥ S))

end Cert.Attn

end
-- ==== Proof.Consts.lean ====
import Idealize.ShloMosaic.PureOps.Ideal

noncomputable section

/-! # The float constants of the two programs, as the extended reals their bit patterns denote -/

namespace Cert.Attn.Consts

open Idealize.ShloMosaic

/-- The pattern of -∞ denotes the bottom element. -/
theorem ofBits_neg_inf : Ideal.ofBits .f32 0xFF800000#32 = ⊥ := by
  simp [Ideal.ofBits, Ideal.ieee]

/-- `0.125`, the kernel's score scale, denotes 1/8. -/
theorem ofBits_eighth : Ideal.ofBits .f32 0x3E000000#32 = ((1 / 8 : ℝ) : EReal) := by
  simp [Ideal.ofBits, Ideal.ieee, -EReal.coe_mul]; norm_num

/-- `8.0`, the reference's divisor, denotes 8. -/
theorem ofBits_eight : Ideal.ofBits .f32 0x41000000#32 = ((8 : ℝ) : EReal) := by
  simp [Ideal.ofBits, Ideal.ieee, -EReal.coe_mul]; norm_num

end Cert.Attn.Consts

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.IdealAttn.lean ====
import proofs.«172513_j47966194761863_2_alg».proof.Proof.IdealStage1
import proofs.«172513_j47966194761863_2_alg».proof.Proof.Coords
import proofs.«172513_j47966194761863_2_alg».proof.Proof.IdealMatmuls
import proofs.«172513_j47966194761863_2_alg».proof.Proof.Consts
import proofs.«172513_j47966194761863_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Affine
import Idealize.ShloMosaic.PureOps.IdealRules
set_option maxRecDepth 16384

noncomputable section

namespace Cert.Attn

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Stages

open Idealize.ShloMosaic.ValueLayout

/-! # One query tile of causal attention, entry by entry -/

/-- The lane maximum of a tile, kept as a column and spread back over the lanes. -/
def laneMax (s : FVec Ideal S256x2048 .f32) : FVec Ideal S256x2048 .f32 :=
  broadcastTo S256x2048 (shapeCast S256x1 (multiReduction .maximumf [1] S256 s 0xFF800000#32 reduces_S256x2048_S256 (.inl rfl) rfl) shapeCasts_S256_S256x1) broadcasts_S256x1_S256x2048

/-- The lane sum of a tile, kept as a column and spread back over the lanes. -/
def laneSum (e : FVec Ideal S256x2048 .f32) : FVec Ideal S256x2048 .f32 :=
  broadcastTo S256x2048 (shapeCast S256x1 (multiReduction .add [1] S256 e 0x00000000#32 reduces_S256x2048_S256 (.inl rfl) rfl) shapeCasts_S256_S256x1) broadcasts_S256x1_S256x2048

/-- The row index with the lane put back. -/
theorem lane_back (r : Fin 256) (k : Fin 2048) : reduces_S256x2048_S256.lift (ix1 r) k = ix2 r k :=
  funext fun c => Fin.ext (by
    match c with
    | ⟨0, _⟩ => rfl
    | ⟨1, _⟩ => rfl)

theorem laneMax_apply (s : FVec Ideal S256x2048 .f32) (r : Fin 256) (k : Fin 2048) :
    laneMax s (ix2 r k) = Finset.univ.fold max ⊥ (fun k' : Fin 2048 => s (ix2 r k')) := by
  unfold laneMax
  rw [broadcastTo_a1_ab_apply, shapeCast_a_a1_apply]
  refine (Ideal.multiReduction_maximumf_single s 0xFF800000#32 reduces_S256x2048_S256 _ _ (ix1 r)).trans ?_
  rw [Ideal.ofBits_def, Consts.ofBits_neg_inf]
  exact congrArg (Finset.univ.fold max ⊥) (funext fun k' => congrArg s (lane_back r k'))

theorem laneSum_apply (e : FVec Ideal S256x2048 .f32) (r : Fin 256) (k : Fin 2048) :
    laneSum e (ix2 r k) = ∑ k' : Fin 2048, e (ix2 r k') := by
  unfold laneSum
  rw [broadcastTo_a1_ab_apply, shapeCast_a_a1_apply]
  refine (Ideal.multiReduction_add_single e 0x00000000#32 reduces_S256x2048_S256 _ _ (ix1 r)).trans ?_
  exact Finset.sum_congr rfl fun k' _ => congrArg e (lane_back r k')

/-- The body's softmax over the lanes of a tile of scores. -/
def softmaxTile (s : FVec Ideal S256x2048 .f32) : FVec Ideal S256x2048 .f32 :=
  divf (exp (subf s (laneMax s))) (laneSum (exp (subf s (laneMax s))))

theorem softmaxTile_apply (s : FVec Ideal S256x2048 .f32) (r : Fin 256) (k : Fin 2048) :
    softmaxTile s (ix2 r k) = softmaxRow (fun k' => s (ix2 r k')) k := by
  unfold softmaxTile softmaxRow
  rw [divf_apply, laneSum_apply]
  show Ideal.div (Ideal.exp (s (ix2 r k) - laneMax s (ix2 r k))) (∑ k' : Fin 2048, Ideal.exp (s (ix2 r k') - laneMax s (ix2 r k'))) = _
  simp only [laneMax_apply]

/-! ## The tile's scores -/

/-- The masking constant denotes -∞. -/
theorem neg_big_eq : Named.named (F := Ideal) κ "neg_big" (φ := .f32) 0xF149F2CA#32 = ⊥ :=
  IdealRules.named_const.ideal_named_scalar _ _ _ _ rfl

/-- The tile's masked, scaled scores, as the body spells them. -/
def tileScores (i : grid1.Coords) (v0 : Vec Ideal S1x256x64 .bf16) (v2 : Vec Ideal S1x2048x64 .bf16) : FVec Ideal S256x2048 .f32 :=
  have v1 : FVec Ideal S256x64 .bf16 := shapeCast S256x64 v0 shapeCasts_S1x256x64_S256x64
  have v3 : FVec Ideal S2048x64 .bf16 := shapeCast S2048x64 v2 shapeCasts_S1x2048x64_S2048x64
  have v6 : FVec Ideal S64x2048 .bf16 := transpose S64x2048 [1, 0] v3 transposes_S2048x64_p1_0_S64x2048
  have v7 : FVec Ideal S256x2048 .f32 := matmul dot_S256x64_S64x2048_S256x2048_1_0_0_1_n_n none v1 v6 (constant S256x2048 .f32 0x00000000#32)
  have v9 : FVec Ideal S256x2048 .f32 := mulf v7 (broadcast S256x2048 (Scalar.ofBits .f32 0x3E000000#32))
  have v13 : IVec S256x2048 32 := addi (iota .tc S256x2048 32 [0] iota_S256x2048_d0_w32) (broadcast S256x2048 (Scalar.muli (BitVec.ofNat 32 (i 1).val) 256#32))
  have v15 : IVec S256x2048 1 := cmpi .sle (iota .tc S256x2048 32 [1] iota_S256x2048_d1_w32) v13
  select v15 v9 (broadcast S256x2048 (Named.named κ "neg_big" 0xF149F2CA#32))

theorem weights_tile_is (i : grid1.Coords) (v0 : Vec Ideal S1x256x64 .bf16) (v2 : Vec Ideal S1x2048x64 .bf16) :
    k1_pay2 (F := Ideal) i v0 v2 = softmaxTile (tileScores i v0 v2) := rfl

/-- Query row `r` of the tile against key `k`: the scaled inner product where the key is not later than the query's
    position in the sequence, -∞ elsewhere. -/
def scoreAt (i : grid1.Coords) (v0 : Vec Ideal S1x256x64 .bf16) (v2 : Vec Ideal S1x2048x64 .bf16) (r : Fin 256) (k : Fin 2048) : EReal :=
  if k.val ≤ r.val + (i 1).val * 256 then (∑ d : Fin 64, v0 (ix3 (0 : Fin 1) r d) * v2 (ix3 (0 : Fin 1) k d)) * ((1 / 8 : ℝ) : EReal) else ⊥

theorem tileScores_apply (i : grid1.Coords) (v0 : Vec Ideal S1x256x64 .bf16) (v2 : Vec Ideal S1x2048x64 .bf16) (r : Fin 256) (k : Fin 2048) :
    tileScores i v0 v2 (ix2 r k) = scoreAt i v0 v2 r k := by
  unfold tileScores scoreAt
  dsimp only
  rw [select_apply]
  have hq8 : (i 1).val < 8 := (i 1).isLt
  have hk : Affine.IsInt (BitVec.ofNat 32 k.val) (k.val : Int) := Affine.ofNat k.val ⟨rfl, by have := k.isLt; omega⟩
  have hr : Affine.IsInt (BitVec.ofNat 32 r.val) (r.val : Int) := Affine.ofNat r.val ⟨rfl, by have := r.isLt; omega⟩
  have hq : Affine.IsInt (BitVec.ofNat 32 (i 1).val) ((i 1).val : Int) := Affine.ofNat (i 1).val ⟨rfl, by omega⟩
  have h256 : Affine.IsInt (256#32) (256 : Int) := Affine.ofNat 256 ⟨rfl, by norm_num⟩
  have hmul : Affine.IsInt (Scalar.muli (BitVec.ofNat 32 (i 1).val) 256#32) ((i 1).val * 256 : Int) :=
    Affine.muli hq h256 ⟨rfl, by omega, by omega⟩
  have hadd : Affine.IsInt (Scalar.addi (BitVec.ofNat 32 r.val) (Scalar.muli (BitVec.ofNat 32 (i 1).val) 256#32)) (r.val + (i 1).val * 256 : Int) :=
    Affine.addi hr hmul ⟨rfl, by have := r.isLt; omega, by have := r.isLt; omega⟩
  have hmask : cmpi .sle (iota .tc S256x2048 32 [1] iota_S256x2048_d1_w32) (addi (iota .tc S256x2048 32 [0] iota_S256x2048_d0_w32) (broadcast S256x2048 (Scalar.muli (BitVec.ofNat 32 (i 1).val) 256#32))) (ix2 r k)
      = Scalar.cmpi .sle (BitVec.ofNat 32 k.val) (Scalar.addi (BitVec.ofNat 32 r.val) (Scalar.muli (BitVec.ofNat 32 (i 1).val) 256#32)) := by
    show Scalar.cmpi .sle (iota .tc S256x2048 32 [1] iota_S256x2048_d1_w32 (ix2 r k)) (Scalar.addi (iota .tc S256x2048 32 [0] iota_S256x2048_d0_w32 (ix2 r k)) _) = _
    rw [iota_single_apply, iota_single_apply]
    rfl
  rw [hmask]
  by_cases h : k.val ≤ r.val + (i 1).val * 256
  · have hm : Scalar.cmpi .sle (BitVec.ofNat 32 k.val) (Scalar.addi (BitVec.ofNat 32 r.val) (Scalar.muli (BitVec.ofNat 32 (i 1).val) 256#32)) = 1#1 :=
      Affine.sle_holds hk hadd (by omega)
    rw [if_pos h, hm, select_one, mulf_apply, mm_scores, broadcast_apply, Ideal.ofBits_def, Consts.ofBits_eighth]
    refine congrArg (· * _) (Finset.sum_congr rfl fun d _ => congrArg₂ (· * ·) ?_ ?_)
    · exact shapeCast_apply v0 shapeCasts_S1x256x64_S256x64 (ix2 r d) (ix3 (0 : Fin 1) r d) (by
        rw [Shape.rowMajor_val_three, Shape.rowMajor_val_two]
        show (0 * 256 + r.val) * 64 + d.val = r.val * 64 + d.val
        omega)
    · refine (transpose_apply [1, 0] _ transposes_S2048x64_p1_0_S64x2048 (ix2 d k) (ix2 k d) (fun b => match b with
        | ⟨0, _⟩ => rfl
        | ⟨1, _⟩ => rfl)).trans ?_
      exact shapeCast_apply v2 shapeCasts_S1x2048x64_S2048x64 (ix2 k d) (ix3 (0 : Fin 1) k d) (by
        rw [Shape.rowMajor_val_three, Shape.rowMajor_val_two]
        show (0 * 2048 + k.val) * 64 + d.val = k.val * 64 + d.val
        omega)
  · have hm : ¬ Scalar.cmpi .sle (BitVec.ofNat 32 k.val) (Scalar.addi (BitVec.ofNat 32 r.val) (Scalar.muli (BitVec.ofNat 32 (i 1).val) 256#32)) = 1#1 :=
      Affine.sle_fails hk hadd (by omega)
    rw [if_neg h, eq_zero_of_ne_one hm, select_zero, broadcast_apply, neg_big_eq]

/-! ## What the body stores -/

/-- The stored weights at row `r`, key `k` of the tile. -/
theorem pay_weights (i : grid1.Coords) (v0 : Vec Ideal S1x256x64 .bf16) (v2 : Vec Ideal S1x2048x64 .bf16) (r : Fin 256) (k : Fin 2048) :
    k1_pay3 (F := Ideal) i v0 v2 (ix3 (0 : Fin 1) r k) = softmaxRow (scoreAt i v0 v2 r) k := by
  unfold k1_pay3
  refine (shapeCast_apply _ shapeCasts_S256x2048_S1x256x2048 (ix3 (0 : Fin 1) r k) (ix2 r k) (by
    rw [Shape.rowMajor_val_three, Shape.rowMajor_val_two]
    show r.val * 2048 + k.val = (0 * 256 + r.val) * 2048 + k.val
    omega)).trans ?_
  rw [weights_tile_is, softmaxTile_apply]
  simp only [tileScores_apply]

/-- The stored attention output at row `r`, feature `d` of the tile: the weights' row against the values' column. -/
theorem pay_mix (i : grid1.Coords) (v0 : Vec Ideal S1x256x64 .bf16) (v2 v4 : Vec Ideal S1x2048x64 .bf16) (r : Fin 256) (d : Fin 64) :
    k1_pay1 (F := Ideal) (k1_pay4 i v0 v2 v4) (ix3 (0 : Fin 1) r d) = ∑ k : Fin 2048, softmaxRow (scoreAt i v0 v2 r) k * v4 (ix3 (0 : Fin 1) k d) := by
  unfold k1_pay1
  refine (shapeCast_apply _ shapeCasts_S256x64_S1x256x64 (ix3 (0 : Fin 1) r d) (ix2 r d) (by
    rw [Shape.rowMajor_val_three, Shape.rowMajor_val_two]
    show r.val * 64 + d.val = (0 * 256 + r.val) * 64 + d.val
    omega)).trans ?_
  unfold k1_pay4
  rw [truncf_apply]
  refine (mm_mix _ _ r d).trans ?_
  refine Finset.sum_congr rfl fun k _ => congrArg₂ (· * ·) ?_ ?_
  · rw [truncf_apply, weights_tile_is, softmaxTile_apply]
    simp only [tileScores_apply]
  · exact shapeCast_apply v4 shapeCasts_S1x2048x64_S2048x64 (ix2 k d) (ix3 (0 : Fin 1) k d) (by
      rw [Shape.rowMajor_val_three, Shape.rowMajor_val_two]
      show (0 * 2048 + k.val) * 64 + d.val = k.val * 64 + d.val
      omega)

/-! ## The two arrays after the call -/

/-- Query position `q` against key position `k` in head `h`: the scaled inner product where `k ≤ q`, -∞ elsewhere. -/
def headScore (Q K : S24x2048x64.Idx → EReal) (h : Fin 24) (q k : Fin 2048) : EReal :=
  if k.val ≤ q.val then (∑ d : Fin 64, Q (ix3 h q d) * K (ix3 h k d)) * ((1 / 8 : ℝ) : EReal) else ⊥

/-- The attention weights: the softmax over the keys of each query's scores. -/
def attnWeights (Q K : S24x2048x64.Idx → EReal) : S24x2048x2048.Idx → EReal :=
  fun i => softmaxRow (headScore Q K ⟨(i 0).val, (i 0).isLt⟩ ⟨(i 1).val, (i 1).isLt⟩) ⟨(i 2).val, (i 2).isLt⟩

/-- The attention output: each query's weights against the values. -/
def attnMix (Q K Vv : S24x2048x64.Idx → EReal) : S24x2048x64.Idx → EReal :=
  fun i => ∑ k : Fin 2048, softmaxRow (headScore Q K ⟨(i 0).val, (i 0).isLt⟩ ⟨(i 1).val, (i 1).isLt⟩) k
    * Vv (ix3 (⟨(i 0).val, (i 0).isLt⟩ : Fin 24) k (⟨(i 2).val, (i 2).isLt⟩ : Fin 64))

variable (V : (c : Dev nD) → (b : Ref sig .tc) → Buf (Elt Ideal) ((c : Thread nD τ).loc b))

theorem zeros_three : (![0, 0, 0] : Fin 3 → Nat) = fun _ => 0 := funext fun a => by fin_cases a <;> rfl

/-- The index maps over the grid of 24 heads by 8 query tiles, and the tile coordinate the body reads. -/
theorem index_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = t.val % 8 ∧ win1_4.index t (2 : Fin 3) = 0
    ∧ (grid1.coords t 1).val = t.val % 8 :=
  (by decide +kernel : ∀ t : Fin grid1.N, _)

/-- A tile's scores are the head's scores at the tile's rows. -/
theorem tile_scores_are (c : Dev nD) (t : Fin cfg1.N) (r : Fin 256) (h : Fin 24) (q : Fin 2048)
    (hh : h.val = t.val / 8) (hq : q.val = t.val % 8 * 256 + r.val) :
    scoreAt (grid1.coords t) (blockAt1 V c 0 t) (blockAt1 V c 1 t) r = headScore (V c main_v12) (V c main_v15) h q := by
  obtain ⟨a0, a1, a2, b0, b1, b2, c0, c1, c2, d0, d1, d2, e0, e1, e2, g⟩ := index_facts1 t
  funext k
  unfold scoreAt headScore
  have hb0 : ∀ y, blockAt1 V c 0 t y = V c main_v12 (((cfg1.win 0).blk t).view.emb y) := fun y => rfl
  have hb1 : ∀ y, blockAt1 V c 1 t y = V c main_v15 (((cfg1.win 1).blk t).view.emb y) := fun y => rfl
  refine if_congr (by rw [g, hq]; omega) ?_ rfl
  refine congrArg (· * _) (Finset.sum_congr rfl fun d _ => ?_)
  rw [hb0, hb1]
  refine congrArg₂ (· * ·) (congrArg (V c main_v12) (funext fun a => Fin.ext ?_)) (congrArg (V c main_v15) (funext fun a => Fin.ext ?_))
  · match a with
    | ⟨0, _⟩ => show win1_0.index t (0 : Fin 3) * 1 + 1 * 0 = h.val; omega
    | ⟨1, _⟩ => show win1_0.index t (1 : Fin 3) * 256 + 1 * r.val = q.val; omega
    | ⟨2, _⟩ => show win1_0.index t (2 : Fin 3) * 64 + 1 * d.val = d.val; omega
  · match a with
    | ⟨0, _⟩ => show win1_1.index t (0 : Fin 3) * 1 + 1 * 0 = h.val; omega
    | ⟨1, _⟩ => show win1_1.index t (1 : Fin 3) * 2048 + 1 * k.val = k.val; omega
    | ⟨2, _⟩ => show win1_1.index t (2 : Fin 3) * 64 + 1 * d.val = d.val; omega

/-- What point `t` writes back of the weights is its block of the whole weights. -/
theorem flushed_weights (c : Dev nD) (t : Fin cfg1.N) :
    (data1 V c).flushed 4 t = ((cfg1.win 4).blk t).view.read (Elt Ideal) (attnWeights (V c main_v12) (V c main_v15)) := by
  show (cfg1.win 4).cut (grid1.coords t) ((data1 V c).after 4 t) = _
  rw [data1_after_4]
  unfold stored1_4
  rw [View.canon_unit_zero zeros_three]
  simp only [View.ld_unit_zero (S := S1x256x64) zeros_three, View.ld_unit_zero (S := S1x2048x64) zeros_three]
  obtain ⟨a0, a1, a2, b0, b1, b2, c0, c1, c2, d0, d1, d2, e0, e1, e2, g⟩ := index_facts1 t
  funext y
  obtain ⟨u, r, k, rfl⟩ : ∃ (u : Fin 1) (r : Fin 256) (k : Fin 2048), y = ix3 u r k := ⟨y 0, y 1, y 2, eq_ix3 y⟩
  obtain rfl : u = 0 := Fin.ext (by omega)
  refine (pay_weights _ _ _ r k).trans ?_
  have hr : ∀ (G : S24x2048x2048.Idx → EReal) y, View.read (Elt Ideal) ((View.whole main_v19_1).slice ((win1 4).rect t)) G y
      = G (((cfg1.win 4).blk t).view.emb y) := fun G y => rfl
  rw [hr]
  unfold attnWeights
  refine congrArg₂ softmaxRow (tile_scores_are V c t r _ _ ?_ ?_) (Fin.ext ?_)
  · show win1_4.index t (0 : Fin 3) * 1 + 1 * 0 = t.val / 8; omega
  · show win1_4.index t (1 : Fin 3) * 256 + 1 * r.val = t.val % 8 * 256 + r.val; omega
  · show k.val = win1_4.index t (2 : Fin 3) * 2048 + 1 * k.val; omega

/-- What point `t` writes back of the attention output is its block of the whole output. -/
theorem flushed_mix (c : Dev nD) (t : Fin cfg1.N) :
    (data1 V c).flushed 3 t = ((cfg1.win 3).blk t).view.read (Elt Ideal) (attnMix (V c main_v12) (V c main_v15) (V c main_v18)) := by
  show (cfg1.win 3).cut (grid1.coords t) ((data1 V c).after 3 t) = _
  rw [data1_after_3]
  unfold stored1_3
  rw [View.canon_unit_zero zeros_three]
  simp only [View.ld_unit_zero (S := S1x256x64) zeros_three, View.ld_unit_zero (S := S1x2048x64) zeros_three]
  obtain ⟨a0, a1, a2, b0, b1, b2, c0, c1, c2, d0, d1, d2, e0, e1, e2, g⟩ := index_facts1 t
  funext y
  obtain ⟨u, r, d, rfl⟩ : ∃ (u : Fin 1) (r : Fin 256) (d : Fin 64), y = ix3 u r d := ⟨y 0, y 1, y 2, eq_ix3 y⟩
  obtain rfl : u = 0 := Fin.ext (by omega)
  refine (pay_mix _ _ _ _ r d).trans ?_
  have hr : ∀ (G : S24x2048x64.Idx → EReal) y, View.read (Elt Ideal) ((View.whole main_v19_0).slice ((win1 3).rect t)) G y
      = G (((cfg1.win 3).blk t).view.emb y) := fun G y => rfl
  have hb2 : ∀ y, blockAt1 V c 2 t y = V c main_v18 (((cfg1.win 2).blk t).view.emb y) := fun y => rfl
  rw [hr]
  unfold attnMix
  refine Finset.sum_congr rfl fun k _ => congrArg₂ (· * ·) (congrFun (congrArg softmaxRow (tile_scores_are V c t r _ _ ?_ ?_)) k) ?_
  · show win1_3.index t (0 : Fin 3) * 1 + 1 * 0 = t.val / 8; omega
  · show win1_3.index t (1 : Fin 3) * 256 + 1 * r.val = t.val % 8 * 256 + r.val; omega
  · rw [hb2]
    refine congrArg (V c main_v18) (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * k.val = k.val; omega
    | ⟨2, _⟩ => show win1_2.index t (2 : Fin 3) * 64 + 1 * d.val = win1_3.index t (2 : Fin 3) * 64 + 1 * d.val; omega

theorem mem_block_weights (t : Fin cfg1.N) (i : S24x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v19_1).slice (win1_4.rect t)).set ↔ _
  rw [View.set_slice_whole, Rect.mem_set_unit]
  exact Iff.rfl

theorem mem_block_mix (t : Fin cfg1.N) (i : S24x2048x64.Idx) :
    i ∈ ((cfg1.win 3).blk t).view.set ↔ ∀ a : Fin 3, win1_3.index t a * S1x256x64.size a ≤ (i a).val ∧ (i a).val < win1_3.index t a * S1x256x64.size a + S1x256x64.size a := by
  show i ∈ ((View.whole main_v19_0).slice (win1_3.rect t)).set ↔ _
  rw [View.set_slice_whole, Rect.mem_set_unit]
  exact Iff.rfl

/-- Head `h`, query position `q` lies in the block of point `8 h + q / 256`. -/
theorem covered_weights (i : S24x2048x2048.Idx) : ∃ t : Fin cfg1.N, (cfg1.win 4).flush t = true ∧ i ∈ ((cfg1.win 4).blk t).view.set := by
  have hi0 : (i 0).val < 24 := (i 0).isLt
  have hi1 : (i 1).val < 2048 := (i 1).isLt
  have hi2 : (i 2).val < 2048 := (i 2).isLt
  let t : Fin cfg1.N := ⟨(i 0).val * 8 + (i 1).val / 256, by show (i 0).val * 8 + (i 1).val / 256 < grid1.N; rw [N_1]; omega⟩
  obtain ⟨a0, a1, a2, b0, b1, b2, c0, c1, c2, d0, d1, d2, e0, e1, e2, g⟩ := index_facts1 t
  have ht : t.val = (i 0).val * 8 + (i 1).val / 256 := rfl
  refine ⟨t, flush1_4 t, ?_⟩
  rw [mem_block_weights]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 2048 ≤ (i 2).val ∧ (i 2).val < win1_4.index t (2 : Fin 3) * 2048 + 2048; omega

theorem covered_mix (i : S24x2048x64.Idx) : ∃ t : Fin cfg1.N, (cfg1.win 3).flush t = true ∧ i ∈ ((cfg1.win 3).blk t).view.set := by
  have hi0 : (i 0).val < 24 := (i 0).isLt
  have hi1 : (i 1).val < 2048 := (i 1).isLt
  have hi2 : (i 2).val < 64 := (i 2).isLt
  let t : Fin cfg1.N := ⟨(i 0).val * 8 + (i 1).val / 256, by show (i 0).val * 8 + (i 1).val / 256 < grid1.N; rw [N_1]; omega⟩
  obtain ⟨a0, a1, a2, b0, b1, b2, c0, c1, c2, d0, d1, d2, e0, e1, e2, g⟩ := index_facts1 t
  have ht : t.val = (i 0).val * 8 + (i 1).val / 256 := rfl
  refine ⟨t, flush1_3 t, ?_⟩
  rw [mem_block_mix]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 64 ≤ (i 2).val ∧ (i 2).val < win1_3.index t (2 : Fin 3) * 64 + 64; omega

/-- The weights array after the call. -/
theorem final_weights (c : Dev nD) : (data1 V c).arrAt 4 cfg1.N = attnWeights (V c main_v12) (V c main_v15) :=
  (data1 V c).arrAt_eq_of_cover 4 _ (fun t _ => flushed_weights V c t) (covered_weights)

/-- The attention output array after the call. -/
theorem final_mix (c : Dev nD) : (data1 V c).arrAt 3 cfg1.N = attnMix (V c main_v12) (V c main_v15) (V c main_v18) :=
  (data1 V c).arrAt_eq_of_cover 3 _ (fun t _ => flushed_mix V c t) (covered_mix)

end Cert.Attn

end
-- ==== Proof.IdealValue.lean ====
import proofs.«172513_j47966194761863_2_alg».proof.Proof.IdealRun
import proofs.«172513_j47966194761863_2_alg».proof.Proof.IdealProj
import proofs.«172513_j47966194761863_2_alg».proof.Proof.IdealAttn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

namespace Cert.Attn

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Stages

open Idealize.ShloMosaic.StableHlo

/-! # The host layout operations around the three calls, and the kernel's two results as functions of its arguments -/

variable (m : (ℓ : Loc nD τ sig) → Buf (Elt Ideal) ℓ) (ρ : Dev nD → PrngReg)

/-- One third of the fused projection, cut out and laid out by heads. -/
def toHeads (off : Fin 2 → Nat) (hs : S4096x2304.Slices off S4096x768) (P : S4096x2304.Idx → EReal) : S24x2048x64.Idx → EReal :=
  shapeCast S24x2048x64 (transpose S2x12x2048x64 [0, 2, 1, 3] (shapeCast S2x2048x12x64 (extractStridedSlice S4096x768 off P hs) shapeCasts_S4096x768_S2x2048x12x64) transposes_S2x2048x12x64_S2x12x2048x64_0_2_1_3) shapeCasts_S2x12x2048x64_S24x2048x64

/-- The attention output laid back by rows. -/
def fromHeads (A : S24x2048x64.Idx → EReal) : S4096x768.Idx → EReal :=
  shapeCast S4096x768 (transpose S2x2048x12x64 [0, 2, 1, 3] (shapeCast S2x12x2048x64 A shapeCasts_S24x2048x64_S2x12x2048x64) transposes_S2x12x2048x64_S2x2048x12x64_0_2_1_3) shapeCasts_S2x2048x12x64_S4096x768

/-- The fused weight matrix: the three transposed weight matrices side by side. -/
def fusedWeights (wq wk wv : S768x768.Idx → EReal) : S768x2304.Idx → EReal :=
  concatenate S768x2304 1 [⟨S768x768, transpose S768x768 [1, 0] wq transposes_S768x768_S768x768_1_0⟩, ⟨S768x768, transpose S768x768 [1, 0] wk transposes_S768x768_S768x768_1_0⟩, ⟨S768x768, transpose S768x768 [1, 0] wv transposes_S768x768_S768x768_1_0⟩] concatenates_S768x768_S768x768_S768x768_S768x2304_d1

theorem entry0_v5 (c : Dev nD) : E1 m ρ c main_v5 = shapeCast S4096x768 (m ((c : Thread nD τ).loc main_arg0)) shapeCasts_S2x2048x768_S4096x768 := by
  show StableHlo.after hostOps0 (B0 m ρ c) (Proc.devRef .tc main_v5) = _
  after_results <;> rfl

theorem entry0_v3 (c : Dev nD) : E1 m ρ c main_v3 = fusedWeights (m ((c : Thread nD τ).loc main_arg1)) (m ((c : Thread nD τ).loc main_arg2)) (m ((c : Thread nD τ).loc main_arg3)) := by
  show StableHlo.after hostOps0 (B0 m ρ c) (Proc.devRef .tc main_v3) = _
  after_results <;> rfl

theorem entry0_v4 (c : Dev nD) : B1 m ρ c (Proc.devRef .tc main_v4) = transpose S768x768 [1, 0] (m ((c : Thread nD τ).loc main_arg4)) transposes_S768x768_S768x768_1_0 := by
  show StableHlo.after hostOps0 (B0 m ρ c) (Proc.devRef .tc main_v4) = _
  after_results <;> rfl

/-- The fused projection's array after the first call. -/
theorem after0_v6 (c : Dev nD) : B2 m ρ c (Proc.devRef .tc main_v6) = rowsTimesWide (E1 m ρ c main_v5) (E1 m ρ c main_v3) :=
  (B2_arr m ρ c 2).trans (final_0 (E1 m ρ) c)

theorem entry1_v12 (c : Dev nD) : E3 m ρ c main_v12 = toHeads ![0, 0] slices_S4096x2304_S4096x768_0_0 (B2 m ρ c (Proc.devRef .tc main_v6)) := by
  show StableHlo.after hostOps1 (B2 m ρ c) (Proc.devRef .tc main_v12) = _
  after_results <;> rfl
theorem entry1_v15 (c : Dev nD) : E3 m ρ c main_v15 = toHeads ![0, 768] slices_S4096x2304_S4096x768_0_768 (B2 m ρ c (Proc.devRef .tc main_v6)) := by
  show StableHlo.after hostOps1 (B2 m ρ c) (Proc.devRef .tc main_v15) = _
  after_results <;> rfl
theorem entry1_v18 (c : Dev nD) : E3 m ρ c main_v18 = toHeads ![0, 1536] slices_S4096x2304_S4096x768_0_1536 (B2 m ρ c (Proc.devRef .tc main_v6)) := by
  show StableHlo.after hostOps1 (B2 m ρ c) (Proc.devRef .tc main_v18) = _
  after_results <;> rfl

theorem entry2_v22 (c : Dev nD) : E5 m ρ c main_v22 = fromHeads (B4 m ρ c (Proc.devRef .tc main_v19_0)) := by
  show StableHlo.after hostOps2 (B4 m ρ c) (Proc.devRef .tc main_v22) = _
  after_results <;> rfl

theorem entry2_v4 (c : Dev nD) : E5 m ρ c main_v4 = transpose S768x768 [1, 0] (m ((c : Thread nD τ).loc main_arg4)) transposes_S768x768_S768x768_1_0 :=
  calc B5 m ρ c (Proc.devRef .tc main_v4)
    _ = B4 m ρ c (Proc.devRef .tc main_v4) := StableHlo.after_of_writes_sub hostOps2 _ hostOps2_writes (r := main_v4) (by decide)
    _ = B3 m ρ c (Proc.devRef .tc main_v4) := B4_of_ne m ρ c main_v4 (by decide)
    _ = B2 m ρ c (Proc.devRef .tc main_v4) := StableHlo.after_of_writes_sub hostOps1 _ hostOps1_writes (r := main_v4) (by decide)
    _ = B1 m ρ c (Proc.devRef .tc main_v4) := B2_of_ne m ρ c main_v4 (by decide)
    _ = _ := entry0_v4 m ρ c

theorem after2_v23 (c : Dev nD) : B6 m ρ c (Proc.devRef .tc main_v23) = rowsTimesSquare (E5 m ρ c main_v22) (E5 m ρ c main_v4) :=
  (B6_arr m ρ c 2).trans (final_2 (E5 m ρ) c)

theorem return_v24 (c : Dev nD) : B7 m ρ c (Proc.devRef .tc main_v24) = shapeCast S2x2048x768 (B6 m ρ c (Proc.devRef .tc main_v23)) shapeCasts_S4096x768_S2x2048x768 := by
  show StableHlo.after hostOps3 (B6 m ρ c) (Proc.devRef .tc main_v24) = _
  after_results <;> rfl

theorem return_v25 (c : Dev nD) : B7 m ρ c (Proc.devRef .tc main_v25) = shapeCast S2x12x2048x2048 (B4 m ρ c (Proc.devRef .tc main_v19_1)) shapeCasts_S24x2048x2048_S2x12x2048x2048 := by
  have h : B6 m ρ c (Proc.devRef .tc main_v19_1) = B4 m ρ c (Proc.devRef .tc main_v19_1) :=
    (B6_of_ne m ρ c main_v19_1 (by decide)).trans (StableHlo.after_of_writes_sub hostOps2 _ hostOps2_writes (r := main_v19_1) (by decide))
  rw [← h]
  show StableHlo.after hostOps3 (B6 m ρ c) (Proc.devRef .tc main_v25) = _
  after_results <;> rfl

theorem after1_v19_0 (c : Dev nD) : B4 m ρ c (Proc.devRef .tc main_v19_0) = attnMix (E3 m ρ c main_v12) (E3 m ρ c main_v15) (E3 m ρ c main_v18) :=
  (B4_arr m ρ c 3).trans (final_mix (E3 m ρ) c)

theorem after1_v19_1 (c : Dev nD) : B4 m ρ c (Proc.devRef .tc main_v19_1) = attnWeights (E3 m ρ c main_v12) (E3 m ρ c main_v15) :=
  (B4_arr m ρ c 4).trans (final_weights (E3 m ρ) c)

/-- One of queries, keys, values by heads, from the arguments. -/
def kernelHeads (off : Fin 2 → Nat) (hs : S4096x2304.Slices off S4096x768) (x : S2x2048x768.Idx → EReal) (wq wk wv : S768x768.Idx → EReal) : S24x2048x64.Idx → EReal :=
  toHeads off hs (rowsTimesWide (shapeCast S4096x768 x shapeCasts_S2x2048x768_S4096x768) (fusedWeights wq wk wv))

/-- The kernel's attention weights, from the arguments. -/
def kernelWeights (x : S2x2048x768.Idx → EReal) (wq wk wv : S768x768.Idx → EReal) : S2x12x2048x2048.Idx → EReal :=
  shapeCast S2x12x2048x2048 (attnWeights (kernelHeads ![0, 0] slices_S4096x2304_S4096x768_0_0 x wq wk wv) (kernelHeads ![0, 768] slices_S4096x2304_S4096x768_0_768 x wq wk wv)) shapeCasts_S24x2048x2048_S2x12x2048x2048

/-- The kernel's final output, from the arguments. -/
def kernelFinal (x : S2x2048x768.Idx → EReal) (wq wk wv wo : S768x768.Idx → EReal) : S2x2048x768.Idx → EReal :=
  shapeCast S2x2048x768 (rowsTimesSquare
    (fromHeads (attnMix (kernelHeads ![0, 0] slices_S4096x2304_S4096x768_0_0 x wq wk wv) (kernelHeads ![0, 768] slices_S4096x2304_S4096x768_0_768 x wq wk wv) (kernelHeads ![0, 1536] slices_S4096x2304_S4096x768_0_1536 x wq wk wv)))
    (transpose S768x768 [1, 0] wo transposes_S768x768_S768x768_1_0)) shapeCasts_S4096x768_S2x2048x768

theorem heads_of_entry (c : Dev nD) (off : Fin 2 → Nat) (hs : S4096x2304.Slices off S4096x768) :
    toHeads off hs (B2 m ρ c (Proc.devRef .tc main_v6))
      = kernelHeads off hs (m ((c : Thread nD τ).loc main_arg0)) (m ((c : Thread nD τ).loc main_arg1)) (m ((c : Thread nD τ).loc main_arg2)) (m ((c : Thread nD τ).loc main_arg3)) := by
  unfold kernelHeads
  rw [after0_v6, entry0_v5, entry0_v3]

theorem kernel_out1 (c : Dev nD) : B7 m ρ c (Proc.devRef .tc main_v25)
    = kernelWeights (m ((c : Thread nD τ).loc main_arg0)) (m ((c : Thread nD τ).loc main_arg1)) (m ((c : Thread nD τ).loc main_arg2)) (m ((c : Thread nD τ).loc main_arg3)) := by
  unfold kernelWeights
  rw [return_v25, after1_v19_1, entry1_v12, entry1_v15, heads_of_entry, heads_of_entry]

theorem kernel_out0 (c : Dev nD) : B7 m ρ c (Proc.devRef .tc main_v24)
    = kernelFinal (m ((c : Thread nD τ).loc main_arg0)) (m ((c : Thread nD τ).loc main_arg1)) (m ((c : Thread nD τ).loc main_arg2)) (m ((c : Thread nD τ).loc main_arg3)) (m ((c : Thread nD τ).loc main_arg4)) := by
  unfold kernelFinal
  rw [return_v24, after2_v23, entry2_v22, entry2_v4, after1_v19_0, entry1_v12, entry1_v15, entry1_v18, heads_of_entry, heads_of_entry, heads_of_entry]

end Cert.Attn

end
-- ==== Proof.KernelRead.lean ====
import proofs.«172513_j47966194761863_2_alg».proof.Proof.IdealValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Attn

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Stages

/-! # The kernel's layout operations read at an entry -/

/-- A third of the fused projection laid out by heads: head `12 b + hh`, position `t`, feature `d` is row `2048 b + t`,
    column `off + 64 hh + d`. -/
theorem toHeads_apply (off1 : Nat) (hoff : off1 + 768 ≤ 2304) (hs : S4096x2304.Slices ![0, off1] S4096x768) (P : S4096x2304.Idx → EReal)
    (b : Fin 2) (hh : Fin 12) (t : Fin 2048) (d : Fin 64) :
    toHeads ![0, off1] hs P (ix3 (headOf b hh) t d) = P (ix2 (rowOf b t) (⟨off1 + (hh.val * 64 + d.val), by omega⟩ : Fin 2304)) := by
  unfold toHeads
  refine (shapeCast_apply _ shapeCasts_S2x12x2048x64_S24x2048x64 (ix3 (headOf b hh) t d) (ix4 b hh t d) (by
    rw [Shape.rowMajor_val_four, Shape.rowMajor_val_three]
    show ((b.val * 12 + hh.val) * 2048 + t.val) * 64 + d.val = ((b.val * 12 + hh.val) * 2048 + t.val) * 64 + d.val
    rfl)).trans ?_
  refine (transpose_apply [0, 2, 1, 3] _ transposes_S2x2048x12x64_S2x12x2048x64_0_2_1_3 (ix4 b hh t d) (ix4 b t hh d) (fun a => match a with
    | ⟨0, _⟩ => rfl
    | ⟨1, _⟩ => rfl
    | ⟨2, _⟩ => rfl
    | ⟨3, _⟩ => rfl)).trans ?_
  refine (shapeCast_apply _ shapeCasts_S4096x768_S2x2048x12x64 (ix4 b t hh d) (ix2 (rowOf b t) (featOf hh d)) (by
    rw [Shape.rowMajor_val_two, Shape.rowMajor_val_four]
    show (b.val * 2048 + t.val) * 768 + (hh.val * 64 + d.val) = ((b.val * 2048 + t.val) * 12 + hh.val) * 64 + d.val
    omega)).trans ?_
  exact extractStridedSlice_apply ![0, off1] P hs (ix2 (rowOf b t) (featOf hh d)) _ (fun a => match a with
    | ⟨0, _⟩ => by show b.val * 2048 + t.val = 0 + (b.val * 2048 + t.val); omega
    | ⟨1, _⟩ => rfl)

/-- The attention output laid back by rows: row `2048 b + t`, column `64 hh + d` is head `12 b + hh`, position `t`, feature `d`. -/
theorem fromHeads_apply (A : S24x2048x64.Idx → EReal) (b : Fin 2) (hh : Fin 12) (t : Fin 2048) (d : Fin 64) :
    fromHeads A (ix2 (rowOf b t) (featOf hh d)) = A (ix3 (headOf b hh) t d) := by
  unfold fromHeads
  refine (shapeCast_apply _ shapeCasts_S2x2048x12x64_S4096x768 (ix2 (rowOf b t) (featOf hh d)) (ix4 b t hh d) (by
    rw [Shape.rowMajor_val_four, Shape.rowMajor_val_two]
    show ((b.val * 2048 + t.val) * 12 + hh.val) * 64 + d.val = (b.val * 2048 + t.val) * 768 + (hh.val * 64 + d.val)
    omega)).trans ?_
  refine (transpose_apply [0, 2, 1, 3] _ transposes_S2x12x2048x64_S2x2048x12x64_0_2_1_3 (ix4 b t hh d) (ix4 b hh t d) (fun a => match a with
    | ⟨0, _⟩ => rfl
    | ⟨1, _⟩ => rfl
    | ⟨2, _⟩ => rfl
    | ⟨3, _⟩ => rfl)).trans ?_
  exact shapeCast_apply A shapeCasts_S24x2048x64_S2x12x2048x64 (ix4 b hh t d) (ix3 (headOf b hh) t d) (by
    rw [Shape.rowMajor_val_three, Shape.rowMajor_val_four]
    show ((b.val * 12 + hh.val) * 2048 + t.val) * 64 + d.val = ((b.val * 12 + hh.val) * 2048 + t.val) * 64 + d.val
    rfl)

/-- The input by rows. -/
theorem rows_apply (x : S2x2048x768.Idx → EReal) (b : Fin 2) (t : Fin 2048) (c : Fin 768) :
    shapeCast S4096x768 x shapeCasts_S2x2048x768_S4096x768 (ix2 (rowOf b t) c) = x (ix3 b t c) :=
  shapeCast_apply x shapeCasts_S2x2048x768_S4096x768 (ix2 (rowOf b t) c) (ix3 b t c) (by
    rw [Shape.rowMajor_val_three, Shape.rowMajor_val_two]
    show (b.val * 2048 + t.val) * 768 + c.val = (b.val * 2048 + t.val) * 768 + c.val
    rfl)

theorem fusedWeights_wq (wq wk wv : S768x768.Idx → EReal) (c j : Fin 768) :
    fusedWeights wq wk wv (ix2 c (⟨0 + j.val, by omega⟩ : Fin 2304)) = wq (ix2 j c) := by
  unfold fusedWeights
  refine (concatenate_apply_piece (t := S768x2304) (1 : Fin 2) [⟨S768x768, transpose S768x768 [1, 0] wq transposes_S768x768_S768x768_1_0⟩, ⟨S768x768, transpose S768x768 [1, 0] wk transposes_S768x768_S768x768_1_0⟩, ⟨S768x768, transpose S768x768 [1, 0] wv transposes_S768x768_S768x768_1_0⟩]
    concatenates_S768x768_S768x768_S768x768_S768x2304_d1 (ix2 c (⟨0 + j.val, by omega⟩ : Fin 2304))
    0 (by show (0 : Nat) < 3; omega) S768x768 (transpose S768x768 [1, 0] wq transposes_S768x768_S768x768_1_0) rfl rfl 0 rfl (ix2 c j)
    (fun b hb => by
      match b with
      | ⟨0, _⟩ => rfl
      | ⟨1, _⟩ => exact absurd rfl hb)
    rfl).trans ?_
  exact transpose_apply [1, 0] wq transposes_S768x768_S768x768_1_0 (ix2 c j) (ix2 j c) (fun b => match b with
    | ⟨0, _⟩ => rfl
    | ⟨1, _⟩ => rfl)

theorem fusedWeights_wk (wq wk wv : S768x768.Idx → EReal) (c j : Fin 768) :
    fusedWeights wq wk wv (ix2 c (⟨768 + j.val, by omega⟩ : Fin 2304)) = wk (ix2 j c) := by
  unfold fusedWeights
  refine (concatenate_apply_piece (t := S768x2304) (1 : Fin 2) [⟨S768x768, transpose S768x768 [1, 0] wq transposes_S768x768_S768x768_1_0⟩, ⟨S768x768, transpose S768x768 [1, 0] wk transposes_S768x768_S768x768_1_0⟩, ⟨S768x768, transpose S768x768 [1, 0] wv transposes_S768x768_S768x768_1_0⟩]
    concatenates_S768x768_S768x768_S768x768_S768x2304_d1 (ix2 c (⟨768 + j.val, by omega⟩ : Fin 2304))
    1 (by show (1 : Nat) < 3; omega) S768x768 (transpose S768x768 [1, 0] wk transposes_S768x768_S768x768_1_0) rfl rfl 768 rfl (ix2 c j)
    (fun b hb => by
      match b with
      | ⟨0, _⟩ => rfl
      | ⟨1, _⟩ => exact absurd rfl hb)
    rfl).trans ?_
  exact transpose_apply [1, 0] wk transposes_S768x768_S768x768_1_0 (ix2 c j) (ix2 j c) (fun b => match b with
    | ⟨0, _⟩ => rfl
    | ⟨1, _⟩ => rfl)

theorem fusedWeights_wv (wq wk wv : S768x768.Idx → EReal) (c j : Fin 768) :
    fusedWeights wq wk wv (ix2 c (⟨1536 + j.val, by omega⟩ : Fin 2304)) = wv (ix2 j c) := by
  unfold fusedWeights
  refine (concatenate_apply_piece (t := S768x2304) (1 : Fin 2) [⟨S768x768, transpose S768x768 [1, 0] wq transposes_S768x768_S768x768_1_0⟩, ⟨S768x768, transpose S768x768 [1, 0] wk transposes_S768x768_S768x768_1_0⟩, ⟨S768x768, transpose S768x768 [1, 0] wv transposes_S768x768_S768x768_1_0⟩]
    concatenates_S768x768_S768x768_S768x768_S768x2304_d1 (ix2 c (⟨1536 + j.val, by omega⟩ : Fin 2304))
    2 (by show (2 : Nat) < 3; omega) S768x768 (transpose S768x768 [1, 0] wv transposes_S768x768_S768x768_1_0) rfl rfl 1536 rfl (ix2 c j)
    (fun b hb => by
      match b with
      | ⟨0, _⟩ => rfl
      | ⟨1, _⟩ => exact absurd rfl hb)
    rfl).trans ?_
  exact transpose_apply [1, 0] wv transposes_S768x768_S768x768_1_0 (ix2 c j) (ix2 j c) (fun b => match b with
    | ⟨0, _⟩ => rfl
    | ⟨1, _⟩ => rfl)

end Cert.Attn

end
-- ==== Proof.LibHostMaxRankFour.lean ====
/-
  The host's reduce with a maximum body over the LAST axis of a rank-4 array, read at an index written by its
  coordinates: the maximum, folded from the initial value, of the operand along that axis.
-/
import Idealize.ShloMosaic.PureOps.Ideal.Laws
import Idealize.ShloMosaic.Lib.ValueIdx

namespace Idealize.ShloMosaic.ValueIdx

open Idealize.ShloMosaic

variable {A B C D : ℕ}

/-- (a, b, c) with k put back on the last axis is (a, b, c, k). -/
theorem lift4_last (h : (⟨4, ![A, B, C, D]⟩ : Shape).Reduces [3] (⟨3, ![A, B, C]⟩ : Shape)) (a : Fin A) (b : Fin B) (c : Fin C)
    (k : Fin ((⟨4, ![A, B, C, D]⟩ : Shape).size 3)) : h.lift (ix3 a b c) k = ix4 a b c (⟨k.val, k.isLt⟩ : Fin D) := by
  funext x; apply Fin.ext
  fin_cases x <;> rfl

/-- A rank-4 array reduced by maximum over its last axis, at (a, b, c). -/
theorem hostReduceMax4_last (x : (⟨4, ![A, B, C, D]⟩ : Shape).Idx → EReal) (init : (⟨0, ![]⟩ : Shape).Idx → EReal)
    (h' : (⟨4, ![A, B, C, D]⟩ : Shape).ReducesTo [3] (⟨3, ![A, B, C]⟩ : Shape))
    (h : (⟨4, ![A, B, C, D]⟩ : Shape).Reduces [3] (⟨3, ![A, B, C]⟩ : Shape)) (hu : 0 < (⟨0, ![]⟩ : Shape).numel)
    (a : Fin A) (b : Fin B) (c : Fin C) :
    Host.reduce (FloatOps.maximumf (F := Ideal) (φ := .f32)) x init h' hu (ix3 a b c)
      = (Finset.univ : Finset (Fin D)).fold max (init (Shape.Idx.first hu)) fun k => x (ix4 a b c k) := by
  rw [Host.reduce_eq_fold_single _ x init h' h hu]
  exact congrArg (fun f : Fin D → EReal => (Finset.univ : Finset (Fin D)).fold max (init (Shape.Idx.first hu)) f)
    (funext fun k => congrArg x (lift4_last h a b c k))

end Idealize.ShloMosaic.ValueIdx
-- ==== Proof.RefRead.lean ====
import proofs.«172513_j47966194761863_2_alg».proof.Proof.Gen.ReferenceIdeal.Read
import proofs.«172513_j47966194761863_2_alg».proof.Proof.Coords
import proofs.«172513_j47966194761863_2_alg».proof.Proof.Consts
import proofs.«172513_j47966194761863_2_alg».proof.Proof.LibHostMaxRankFour
import Idealize.ShloMosaic.Lib.Pipeline.Value
import Idealize.ShloMosaic.Lib.ValueIdx
import Idealize.ShloMosaic.Lib.Affine
import Idealize.ShloMosaic.PureOps.Ideal.Laws

set_option maxRecDepth 16384

noncomputable section

/-! # The reference read at coordinates -/

namespace Cert.Attn.Ref

open Idealize.ShloMosaic Idealize.ShloMosaic.ValueIdx
open Cert.ReferenceIdeal Cert.ReferenceIdeal.Gen Cert.ReferenceIdeal.Read
open Cert.Attn

theorem ref_proj_v0 (x : S2x2048x768.Idx → EReal) (w : S768x768.Idx → EReal) (b : Fin 2) (t : Fin 2048) (f : Fin 768) :
    val_main_v0 (F := Ideal) x w (ix3 b t f) = ∑ c : Fin 768, x (ix3 b t c) * w (ix2 f c) := by
  rw [val_main_v0_apply]
  refine Finset.sum_congr rfl fun c _ => congrArg₂ (· * ·) (congrArg x (funext fun a => Fin.ext ?_)) (congrArg w (funext fun a => Fin.ext ?_))
  · match a with
    | ⟨0, _⟩ => rfl
    | ⟨1, _⟩ => rfl
    | ⟨2, _⟩ => rfl
  · match a with
    | ⟨0, _⟩ => rfl
    | ⟨1, _⟩ => rfl

theorem ref_proj_v3 (x : S2x2048x768.Idx → EReal) (w : S768x768.Idx → EReal) (b : Fin 2) (t : Fin 2048) (f : Fin 768) :
    val_main_v3 (F := Ideal) x w (ix3 b t f) = ∑ c : Fin 768, x (ix3 b t c) * w (ix2 f c) := by
  rw [val_main_v3_apply]
  refine Finset.sum_congr rfl fun c _ => congrArg₂ (· * ·) (congrArg x (funext fun a => Fin.ext ?_)) (congrArg w (funext fun a => Fin.ext ?_))
  · match a with
    | ⟨0, _⟩ => rfl
    | ⟨1, _⟩ => rfl
    | ⟨2, _⟩ => rfl
  · match a with
    | ⟨0, _⟩ => rfl
    | ⟨1, _⟩ => rfl

theorem ref_proj_v6 (x : S2x2048x768.Idx → EReal) (w : S768x768.Idx → EReal) (b : Fin 2) (t : Fin 2048) (f : Fin 768) :
    val_main_v6 (F := Ideal) x w (ix3 b t f) = ∑ c : Fin 768, x (ix3 b t c) * w (ix2 f c) := by
  rw [val_main_v6_apply]
  refine Finset.sum_congr rfl fun c _ => congrArg₂ (· * ·) (congrArg x (funext fun a => Fin.ext ?_)) (congrArg w (funext fun a => Fin.ext ?_))
  · match a with
    | ⟨0, _⟩ => rfl
    | ⟨1, _⟩ => rfl
    | ⟨2, _⟩ => rfl
  · match a with
    | ⟨0, _⟩ => rfl
    | ⟨1, _⟩ => rfl

/-- The reference's projection by heads: batch `b`, head `hh`, position `t`, feature `d`. -/
theorem ref_heads_v2 (x : S2x2048x768.Idx → EReal) (w : S768x768.Idx → EReal) (b : Fin 2) (hh : Fin 12) (t : Fin 2048) (d : Fin 64) :
    val_main_v2 (F := Ideal) x w (ix4 b hh t d) = ∑ c : Fin 768, x (ix3 b t c) * w (ix2 (featOf hh d) c) := by
  rw [val_main_v2_apply, val_main_v1_apply]
  have e : idx_main_v1 (idx_main_v2 (ix4 b hh t d)) = ix3 b t (featOf hh d) := by
    funext a; apply Fin.ext
    have hb := b.isLt; have hh' := hh.isLt; have ht := t.isLt; have hd := d.isLt
    match a with
    | ⟨0, _⟩ => show (((b.val * 2048 + t.val) * 12 + hh.val) * 64 + d.val) / 1572864 = b.val; omega
    | ⟨1, _⟩ => show (((b.val * 2048 + t.val) * 12 + hh.val) * 64 + d.val) / 768 % 2048 = t.val; omega
    | ⟨2, _⟩ => show (((b.val * 2048 + t.val) * 12 + hh.val) * 64 + d.val) % 768 = hh.val * 64 + d.val; omega
  rw [e]
  exact ref_proj_v0 x w b t (featOf hh d)

/-- The reference's projection by heads: batch `b`, head `hh`, position `t`, feature `d`. -/
theorem ref_heads_v5 (x : S2x2048x768.Idx → EReal) (w : S768x768.Idx → EReal) (b : Fin 2) (hh : Fin 12) (t : Fin 2048) (d : Fin 64) :
    val_main_v5 (F := Ideal) x w (ix4 b hh t d) = ∑ c : Fin 768, x (ix3 b t c) * w (ix2 (featOf hh d) c) := by
  rw [val_main_v5_apply, val_main_v4_apply]
  have e : idx_main_v4 (idx_main_v5 (ix4 b hh t d)) = ix3 b t (featOf hh d) := by
    funext a; apply Fin.ext
    have hb := b.isLt; have hh' := hh.isLt; have ht := t.isLt; have hd := d.isLt
    match a with
    | ⟨0, _⟩ => show (((b.val * 2048 + t.val) * 12 + hh.val) * 64 + d.val) / 1572864 = b.val; omega
    | ⟨1, _⟩ => show (((b.val * 2048 + t.val) * 12 + hh.val) * 64 + d.val) / 768 % 2048 = t.val; omega
    | ⟨2, _⟩ => show (((b.val * 2048 + t.val) * 12 + hh.val) * 64 + d.val) % 768 = hh.val * 64 + d.val; omega
  rw [e]
  exact ref_proj_v3 x w b t (featOf hh d)

/-- The reference's projection by heads: batch `b`, head `hh`, position `t`, feature `d`. -/
theorem ref_heads_v8 (x : S2x2048x768.Idx → EReal) (w : S768x768.Idx → EReal) (b : Fin 2) (hh : Fin 12) (t : Fin 2048) (d : Fin 64) :
    val_main_v8 (F := Ideal) x w (ix4 b hh t d) = ∑ c : Fin 768, x (ix3 b t c) * w (ix2 (featOf hh d) c) := by
  rw [val_main_v8_apply, val_main_v7_apply]
  have e : idx_main_v7 (idx_main_v8 (ix4 b hh t d)) = ix3 b t (featOf hh d) := by
    funext a; apply Fin.ext
    have hb := b.isLt; have hh' := hh.isLt; have ht := t.isLt; have hd := d.isLt
    match a with
    | ⟨0, _⟩ => show (((b.val * 2048 + t.val) * 12 + hh.val) * 64 + d.val) / 1572864 = b.val; omega
    | ⟨1, _⟩ => show (((b.val * 2048 + t.val) * 12 + hh.val) * 64 + d.val) / 768 % 2048 = t.val; omega
    | ⟨2, _⟩ => show (((b.val * 2048 + t.val) * 12 + hh.val) * 64 + d.val) % 768 = hh.val * 64 + d.val; omega
  rw [e]
  exact ref_proj_v6 x w b t (featOf hh d)

/-- The lower-triangular mask, spread over batches and heads: one where the key is not later than the query. -/
theorem ref_mask (b : Fin 2) (hh : Fin 12) (q k : Fin 2048) :
    val_main_call1_v1 (F := Ideal) (ix4 b hh q k) = if k.val ≤ q.val then 1#1 else 0#1 := by
  rw [val_main_call1_v1_apply, val_main_v11_apply, val_main_call0_v4_apply, val_main_call0_v2_apply]
  have hq : Affine.IsInt (BitVec.ofNat 32 q.val) (q.val : Int) := Affine.ofNat q.val ⟨rfl, by have := q.isLt; omega⟩
  have hk : Affine.IsInt (BitVec.ofNat 32 k.val) (k.val : Int) := Affine.ofNat k.val ⟨rfl, by have := k.isLt; omega⟩
  have h0 : Affine.IsInt (0#32) (0 : Int) := Affine.ofNat 0 ⟨rfl, by norm_num⟩
  have hadd : Affine.IsInt (Scalar.addi (BitVec.ofNat 32 q.val) 0#32) (q.val + 0 : Int) :=
    Affine.addi hq h0 ⟨rfl, by have := q.isLt; omega, by have := q.isLt; omega⟩
  show Scalar.select (Scalar.cmpi .sge (Scalar.addi (BitVec.ofNat 32 q.val) 0#32) (BitVec.ofNat 32 k.val)) 1#1 0#1 = _
  by_cases h : k.val ≤ q.val
  · rw [if_pos h, (Affine.sge_holds hadd hk (by omega) : Scalar.cmpi .sge _ _ = 1#1), select_one]
  · rw [if_neg h, eq_zero_of_ne_one (Affine.sge_fails hadd hk (by omega)), select_zero]

/-- The reference's scaled, masked score of query `q` against key `k`. -/
theorem ref_score (x : S2x2048x768.Idx → EReal) (wq wk : S768x768.Idx → EReal) (b : Fin 2) (hh : Fin 12) (q k : Fin 2048) :
    val_main_v14 (F := Ideal) x wq wk (ix4 b hh q k)
      = if k.val ≤ q.val then (∑ d : Fin 64, val_main_v2 (F := Ideal) x wq (ix4 b hh q d) * val_main_v5 (F := Ideal) x wk (ix4 b hh k d)) * ((1 / 8 : ℝ) : EReal) else ⊥ := by
  rw [val_main_v14_apply, val_main_v12_apply, ref_mask, val_main_v13_apply, val_main_cst_0_apply, val_main_call1_v2_apply,
    val_main_call1_v0_apply, val_main_cst_apply, Ideal.hostDivf_def, Ideal.ofBits_def, Ideal.ofBits_def, Consts.ofBits_eight, Consts.ofBits_neg_inf,
    Ideal.div_coe (by norm_num : (8 : ℝ) ≠ 0)]
  by_cases h : k.val ≤ q.val
  · rw [if_pos h, if_pos h, select_one, val_main_v9_apply]
    refine congrArg (· * _) (Finset.sum_congr rfl fun d _ => congrArg₂ (· * ·) (congrArg _ (funext fun a => Fin.ext ?_)) (congrArg _ (funext fun a => Fin.ext ?_)))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  · rw [if_neg h, if_neg h, select_zero]
    exact EReal.bot_mul_of_pos (by exact_mod_cast (by norm_num : (0 : ℝ) < 1 / 8))

/-- The reference's attention weights are the softmax of the score rows. -/
theorem ref_weights (x : S2x2048x768.Idx → EReal) (wq wk : S768x768.Idx → EReal) (b : Fin 2) (hh : Fin 12) (q k : Fin 2048) :
    val_main_v25 (F := Ideal) x wq wk (ix4 b hh q k) = softmaxRow (fun k' => val_main_v14 (F := Ideal) x wq wk (ix4 b hh q k')) k := by
  have hmax : val_main_v17 (F := Ideal) x wq wk (ix3 b hh q) = Finset.univ.fold max ⊥ (fun k' : Fin 2048 => val_main_v14 (F := Ideal) x wq wk (ix4 b hh q k')) := by
    rw [val_main_v17_apply, val_main_v16_apply, val_main_cst_2_apply, Ideal.maximumf_def, Ideal.ofBits_def, Consts.ofBits_neg_inf, max_eq_right bot_le]
    unfold val_main_v15
    refine (hostReduceMax4_last _ _ reducesTo_S2x12x2048x2048_S2x12x2048_d3 (by decide) h_S_ b hh q).trans ?_
    rw [val_main_cst_1_apply, Ideal.ofBits_def, Consts.ofBits_neg_inf]
  have hrow : ∀ k' : Fin 2048, val_main_v21 (F := Ideal) x wq wk (ix4 b hh q k')
      = Ideal.exp (val_main_v14 (F := Ideal) x wq wk (ix4 b hh q k') - Finset.univ.fold max ⊥ (fun k' : Fin 2048 => val_main_v14 (F := Ideal) x wq wk (ix4 b hh q k'))) := by
    intro k'
    rw [val_main_v21_apply, val_main_v20_apply, val_main_v19_apply, val_main_v18_apply, Ideal.hostUnary_exp_def, Ideal.subf_def]
    have e : idx_main_v18 (idx_main_v19 (ix4 b hh q k')) = ix3 b hh q := funext fun a => Fin.ext (by
      match a with
      | ⟨0, _⟩ => rfl
      | ⟨1, _⟩ => rfl
      | ⟨2, _⟩ => rfl)
    rw [e, hmax]
  unfold softmaxRow
  rw [val_main_v25_apply, Ideal.hostDivf_def, hrow, val_main_v24_apply, val_main_v23_apply]
  have e : idx_main_v23 (idx_main_v24 (ix4 b hh q k)) = ix3 b hh q := funext fun a => Fin.ext (by
    match a with
    | ⟨0, _⟩ => rfl
    | ⟨1, _⟩ => rfl
    | ⟨2, _⟩ => rfl)
  rw [e, val_main_v22_apply, val_main_cst_3_apply, Ideal.ofBits_def, Ideal.ofBits_zero_f32, zero_add]
  refine congrArg _ (Finset.sum_congr rfl fun k' _ => ?_)
  have e' : idx_main_v22 (ix3 b hh q) k' = ix4 b hh q k' := funext fun a => Fin.ext (by
    match a with
    | ⟨0, _⟩ => rfl
    | ⟨1, _⟩ => rfl
    | ⟨2, _⟩ => rfl
    | ⟨3, _⟩ => rfl)
  rw [e', hrow]

/-- The reference's attention output: each query's weights against the values. -/
theorem ref_mix (x : S2x2048x768.Idx → EReal) (wq wk wv : S768x768.Idx → EReal) (b : Fin 2) (hh : Fin 12) (q : Fin 2048) (d : Fin 64) :
    val_main_v26 (F := Ideal) x wq wk wv (ix4 b hh q d)
      = ∑ k : Fin 2048, val_main_v25 (F := Ideal) x wq wk (ix4 b hh q k) * val_main_v8 (F := Ideal) x wv (ix4 b hh k d) := by
  rw [val_main_v26_apply]
  refine Finset.sum_congr rfl fun k _ => congrArg₂ (· * ·) (congrArg _ (funext fun a => Fin.ext ?_)) (congrArg _ (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's final output: the attention output laid back by features, against the output weights. -/
theorem ref_final (x : S2x2048x768.Idx → EReal) (wq wk wv wo : S768x768.Idx → EReal) (b : Fin 2) (t : Fin 2048) (j : Fin 768) :
    val_main_v29 (F := Ideal) x wq wk wv wo (ix3 b t j)
      = ∑ c : Fin 768, val_main_v26 (F := Ideal) x wq wk wv (ix4 b (⟨c.val / 64, by omega⟩ : Fin 12) t (⟨c.val % 64, by omega⟩ : Fin 64)) * wo (ix2 j c) := by
  rw [val_main_v29_apply]
  refine Finset.sum_congr rfl fun c _ => congrArg₂ (· * ·) ?_ (congrArg wo (funext fun a => Fin.ext ?_))
  · rw [val_main_v28_apply, val_main_v27_apply]
    refine congrArg _ (funext fun a => Fin.ext ?_)
    have hb := b.isLt; have ht := t.isLt; have hc := c.isLt
    match a with
    | ⟨0, _⟩ => show ((b.val * 2048 + t.val) * 768 + c.val) / 1572864 = b.val; omega
    | ⟨1, _⟩ => show ((b.val * 2048 + t.val) * 768 + c.val) / 64 % 12 = c.val / 64; omega
    | ⟨2, _⟩ => show ((b.val * 2048 + t.val) * 768 + c.val) / 768 % 2048 = t.val; omega
    | ⟨3, _⟩ => show ((b.val * 2048 + t.val) * 768 + c.val) % 64 = c.val % 64; omega
  · match a with
    | ⟨0, _⟩ => rfl
    | ⟨1, _⟩ => rfl

end Cert.Attn.Ref

end
-- ==== Proof.Bridge.lean ====
import proofs.«172513_j47966194761863_2_alg».proof.Defs
import proofs.«172513_j47966194761863_2_alg».proof.Proof.Gen.Pre_finite_inputs
import proofs.«172513_j47966194761863_2_alg».proof.Proof.Gen.ReferenceIdeal
import proofs.«172513_j47966194761863_2_alg».proof.Proof.KernelRead
import proofs.«172513_j47966194761863_2_alg».proof.Proof.RefRead
import proofs.«172513_j47966194761863_2_alg».proof.Proof.Gen.ReferenceIdeal.Run
import proofs.«172513_j47966194761863_2_alg».proof.Proof.Gen.ReferenceIdeal.Read
import Idealize.ShloMosaic.Lib.Pipeline.Value
import Idealize.ShloMosaic.Lib.ValueIdx

set_option maxRecDepth 16384

noncomputable section

/-! # The two programs compute one function

Both sides project the input by the three weight matrices and lay the results out by heads; both take, per head and
query, the softmax over the keys of the scaled inner products masked to the keys not later than the query; both mix the
values by those weights, lay the result back by rows and project it by the output weights. The sums are the same sums
term by term; the kernel's factor 1/8 is the reference's division by 8; the kernel's named constant is the
reference's -∞. -/

namespace Cert.Bridge

open Idealize.ShloMosaic Idealize.ShloMosaic.TcCoe Idealize.ShloMosaic.ValueIdx Idealize.SL.Sem
open Cert.Attn
open Cert.KernelIdeal Cert.KernelIdeal.Gen Cert.KernelIdeal.Stages

theorem kernel_heads_q (x : S2x2048x768.Idx → EReal) (wq wk wv : S768x768.Idx → EReal) (b : Fin 2) (hh : Fin 12) (t : Fin 2048) (d : Fin 64) :
    kernelHeads ![0, 0] slices_S4096x2304_S4096x768_0_0 x wq wk wv (ix3 (headOf b hh) t d) = ∑ c : Fin 768, x (ix3 b t c) * wq (ix2 (featOf hh d) c) := by
  unfold kernelHeads
  rw [toHeads_apply 0 (by norm_num)]
  unfold rowsTimesWide
  refine Finset.sum_congr rfl fun c _ => congrArg₂ (· * ·) ?_ ?_
  · exact rows_apply x b t c
  · exact fusedWeights_wq wq wk wv c (featOf hh d)

theorem kernel_heads_k (x : S2x2048x768.Idx → EReal) (wq wk wv : S768x768.Idx → EReal) (b : Fin 2) (hh : Fin 12) (t : Fin 2048) (d : Fin 64) :
    kernelHeads ![0, 768] slices_S4096x2304_S4096x768_0_768 x wq wk wv (ix3 (headOf b hh) t d) = ∑ c : Fin 768, x (ix3 b t c) * wk (ix2 (featOf hh d) c) := by
  unfold kernelHeads
  rw [toHeads_apply 768 (by norm_num)]
  unfold rowsTimesWide
  refine Finset.sum_congr rfl fun c _ => congrArg₂ (· * ·) ?_ ?_
  · exact rows_apply x b t c
  · exact fusedWeights_wk wq wk wv c (featOf hh d)

theorem kernel_heads_v (x : S2x2048x768.Idx → EReal) (wq wk wv : S768x768.Idx → EReal) (b : Fin 2) (hh : Fin 12) (t : Fin 2048) (d : Fin 64) :
    kernelHeads ![0, 1536] slices_S4096x2304_S4096x768_0_1536 x wq wk wv (ix3 (headOf b hh) t d) = ∑ c : Fin 768, x (ix3 b t c) * wv (ix2 (featOf hh d) c) := by
  unfold kernelHeads
  rw [toHeads_apply 1536 (by norm_num)]
  unfold rowsTimesWide
  refine Finset.sum_congr rfl fun c _ => congrArg₂ (· * ·) ?_ ?_
  · exact rows_apply x b t c
  · exact fusedWeights_wv wq wk wv c (featOf hh d)

/-- The kernel's weights at batch `b`, head `hh`, query `q`, key `k`. -/
theorem kernelWeights_apply (x : S2x2048x768.Idx → EReal) (wq wk wv : S768x768.Idx → EReal) (b : Fin 2) (hh : Fin 12) (q k : Fin 2048) :
    kernelWeights x wq wk wv (ix4 b hh q k)
      = softmaxRow (headScore (kernelHeads ![0, 0] slices_S4096x2304_S4096x768_0_0 x wq wk wv) (kernelHeads ![0, 768] slices_S4096x2304_S4096x768_0_768 x wq wk wv) (headOf b hh) q) k := by
  unfold kernelWeights
  refine (shapeCast_apply _ shapeCasts_S24x2048x2048_S2x12x2048x2048 (ix4 b hh q k) (ix3 (headOf b hh) q k) (by
    rw [Shape.rowMajor_val_three, Shape.rowMajor_val_four]
    show ((b.val * 12 + hh.val) * 2048 + q.val) * 2048 + k.val = ((b.val * 12 + hh.val) * 2048 + q.val) * 2048 + k.val
    rfl)).trans ?_
  rfl

/-- The kernel's scores are the reference's. -/
theorem scores_eq (x : S2x2048x768.Idx → EReal) (wq wk wv : S768x768.Idx → EReal) (b : Fin 2) (hh : Fin 12) (q k : Fin 2048) :
    headScore (kernelHeads ![0, 0] slices_S4096x2304_S4096x768_0_0 x wq wk wv) (kernelHeads ![0, 768] slices_S4096x2304_S4096x768_0_768 x wq wk wv) (headOf b hh) q k
      = Cert.ReferenceIdeal.Read.val_main_v14 (F := Ideal) x wq wk (ix4 b hh q k) := by
  rw [Ref.ref_score]
  unfold headScore
  refine if_congr Iff.rfl ?_ rfl
  refine congrArg (· * _) (Finset.sum_congr rfl fun d _ => ?_)
  rw [kernel_heads_q, kernel_heads_k, Ref.ref_heads_v2, Ref.ref_heads_v5]

/-- The two programs' attention weights agree. -/
theorem weights_at (x : S2x2048x768.Idx → EReal) (wq wk wv : S768x768.Idx → EReal) (b : Fin 2) (hh : Fin 12) (q k : Fin 2048) :
    kernelWeights x wq wk wv (ix4 b hh q k) = Cert.ReferenceIdeal.Read.val_main_v25 (F := Ideal) x wq wk (ix4 b hh q k) := by
  rw [kernelWeights_apply, Ref.ref_weights]
  exact congrArg (softmaxRow · k) (funext fun k' => scores_eq x wq wk wv b hh q k')

theorem weights_eq (x : S2x2048x768.Idx → EReal) (wq wk wv : S768x768.Idx → EReal) :
    kernelWeights x wq wk wv = Cert.ReferenceIdeal.Read.val_main_v25 (F := Ideal) x wq wk := by
  funext i
  obtain ⟨b, hh, q, k, rfl⟩ : ∃ (b : Fin 2) (hh : Fin 12) (q k : Fin 2048), i = ix4 b hh q k := ⟨i 0, i 1, i 2, i 3, eq_ix4 i⟩
  exact weights_at x wq wk wv b hh q k

/-- The two programs' final outputs agree. -/
theorem final_eq (x : S2x2048x768.Idx → EReal) (wq wk wv wo : S768x768.Idx → EReal) :
    kernelFinal x wq wk wv wo = Cert.ReferenceIdeal.Read.val_main_v29 (F := Ideal) x wq wk wv wo := by
  funext i
  obtain ⟨b, t, j, rfl⟩ : ∃ (b : Fin 2) (t : Fin 2048) (j : Fin 768), i = ix3 b t j := ⟨i 0, i 1, i 2, eq_ix3 i⟩
  rw [Ref.ref_final]
  unfold kernelFinal
  refine (shapeCast_apply _ shapeCasts_S4096x768_S2x2048x768 (ix3 b t j) (ix2 (rowOf b t) j) (by
    rw [Shape.rowMajor_val_two, Shape.rowMajor_val_three]
    show (b.val * 2048 + t.val) * 768 + j.val = (b.val * 2048 + t.val) * 768 + j.val
    rfl)).trans ?_
  unfold rowsTimesSquare
  refine Finset.sum_congr rfl fun c _ => congrArg₂ (· * ·) ?_ ?_
  · have hc : c = featOf (⟨c.val / 64, by omega⟩ : Fin 12) (⟨c.val % 64, by omega⟩ : Fin 64) := Fin.ext (by
      show c.val = c.val / 64 * 64 + c.val % 64
      omega)
    refine (congrArg (fromHeads _) (congrArg (ix2 (rowOf b t)) hc)).trans ?_
    rw [fromHeads_apply, Ref.ref_mix]
    unfold attnMix
    refine Finset.sum_congr rfl fun k _ => congrArg₂ (· * ·) ?_ ?_
    · exact (kernelWeights_apply x wq wk wv b _ t k).symm.trans (weights_at x wq wk wv b _ t k)
    · exact (kernel_heads_v x wq wk wv b _ k _).trans (Ref.ref_heads_v8 x wv b _ k _).symm
  · exact transpose_apply [1, 0] wo transposes_S768x768_S768x768_1_0 (ix2 c j) (ix2 j c) (fun a => match a with
      | ⟨0, _⟩ => rfl
      | ⟨1, _⟩ => rfl)

/-- From memories agreeing on the arguments both programs run, end with equal results, and keep their arguments. -/
theorem algebraic : Cert.algebraic_KernelIdeal_ReferenceIdeal := by
  intro m ρ m' ρ' _ hagree
  refine ⟨fun c => kernelFinal (m ((c : Thread nD τ).loc main_arg0)) (m ((c : Thread nD τ).loc main_arg1)) (m ((c : Thread nD τ).loc main_arg2)) (m ((c : Thread nD τ).loc main_arg3)) (m ((c : Thread nD τ).loc main_arg4)),
    fun c => kernelWeights (m ((c : Thread nD τ).loc main_arg0)) (m ((c : Thread nD τ).loc main_arg1)) (m ((c : Thread nD τ).loc main_arg2)) (m ((c : Thread nD τ).loc main_arg3)), ?_, ?_⟩
  · exact (θ_run Cert.KernelIdeal.defs _ _).mono (fun r h c => ⟨
      (h c _ (mem_unscoped main_v24 (by decide))).trans (kernel_out0 m ρ c),
      (h c _ (mem_unscoped main_v25 (by decide))).trans (kernel_out1 m ρ c),
      (h c _ (mem_unscoped main_arg0 (by decide))).trans (B7_main_arg0 m ρ c),
      (h c _ (mem_unscoped main_arg1 (by decide))).trans (B7_main_arg1 m ρ c),
      (h c _ (mem_unscoped main_arg2 (by decide))).trans (B7_main_arg2 m ρ c),
      (h c _ (mem_unscoped main_arg3 (by decide))).trans (B7_main_arg3 m ρ c),
      (h c _ (mem_unscoped main_arg4 (by decide))).trans (B7_main_arg4 m ρ c)⟩) (run_to_B7 m ρ)
  · refine (θ_run Cert.ReferenceIdeal.defs _ _).mono (fun _ h c => ⟨?_, ?_, (h c).2.2⟩) (Cert.ReferenceIdeal.Value.run (F := Ideal) m' ρ')
    · rw [(h c).1, Cert.ReferenceIdeal.Read.val_main_v29_eq, (hagree c).1, (hagree c).2.1, (hagree c).2.2.1, (hagree c).2.2.2.1, (hagree c).2.2.2.2]
      exact (final_eq _ _ _ _ _).symm
    · rw [(h c).2.1, Cert.ReferenceIdeal.Read.val_main_v25_eq, (hagree c).1, (hagree c).2.1, (hagree c).2.2.1]
      exact (weights_eq _ _ _ _).symm

end Cert.Bridge

end
-- ==== Proof.lean ====
/-
  Causal multi-head self-attention in three Pallas calls — the fused query/key/value projection, the attention of each
  query tile against its head's keys and values, the output projection — against the same computation written with
  einsums and a softmax.

  The program is seven segments: stretches of host layout operations (transposes, a concatenation, reshapes, slices)
  around the three calls. Each call's body loads its windows' staging buffers whole, computes, and stores each output
  buffer whole, so the contents of every buffer at every boundary are a fold from the launch memory, and no segment
  writes an argument array: that is the frame of both printed programs. The reference has no Pallas call; its frame is
  its run with the results dropped.

  The masking constant of the attention body is named "neg_big" and read as -∞ at the exact instance.
-/
import proofs.«172513_j47966194761863_2_alg».proof.Defs
import proofs.«172513_j47966194761863_2_alg».proof.Proof.Gen.Kernel
import proofs.«172513_j47966194761863_2_alg».proof.Proof.Gen.KernelIdeal
import proofs.«172513_j47966194761863_2_alg».proof.Proof.Gen.ReferenceIdeal
import proofs.«172513_j47966194761863_2_alg».proof.Proof.Gen.Pre_finite_inputs
import proofs.«172513_j47966194761863_2_alg».proof.Proof.Gen.ReferenceIdeal.Run
import proofs.«172513_j47966194761863_2_alg».proof.Proof.BitsRun
import proofs.«172513_j47966194761863_2_alg».proof.Proof.IdealRun
import proofs.«172513_j47966194761863_2_alg».proof.Proof.Bridge
import Idealize.ShloMosaic.Adequacy
import Idealize.ShloMosaic.Init

noncomputable section

namespace Cert.Proof

open Idealize.ShloMosaic Idealize.SL.Sem

/-- The word-level program runs and keeps its arguments. -/
theorem frame_bits : Cert.frame_Kernel := fun m ρ _ => Cert.Kernel.Stages.args_kept m ρ

/-- So does the exact one. -/
theorem frame_exact : Cert.frame_KernelIdeal := fun m ρ _ => Cert.KernelIdeal.Stages.args_kept m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the exact program: the masking constant is named, and its name denotes -∞. -/
theorem preserves : Cert.preserves_Kernel_KernelIdeal :=
  IdealRules.named_const.statement Cert.KernelIdeal.κ "neg_big" .f32 0xF149F2CA#32 ⊥ rfl

theorem claim : Cert.Claim := ⟨Cert.Kernel.Gen.facts, Cert.KernelIdeal.Gen.facts, Cert.ReferenceIdeal.Gen.facts, Cert.Pre_finite_inputs.Gen.facts,
  frame_bits, frame_exact, frame_reference, preserves, Cert.Bridge.algebraic⟩

end Cert.Proof

end
